-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v157)) (v2 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v158) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_v217) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg13 : FVec F S128 .f32) (main_arg14 : FVec F S128x10 .f32) (main_arg15 : FVec F S10 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg14
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg15
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg10 : FVec F S128x128 .f32) (main_arg11 : FVec F S128 .f32) (main_arg12 : FVec F S128x128 .f32) (main_arg13 : FVec F S128 .f32) (main_arg14 : FVec F S128x10 .f32) (main_arg15 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_v33

def fn {F : FTy → Type} [FloatOps F] (main_arg0 : IVec S1600000 32) (main_arg1 : IVec S1600000 32) (main_arg2 : IVec S100000 32) (main_arg3 : IVec S1600000 32) (main_arg4 : IVec S1600000 32) (main_arg5 : IVec S100000 32) (main_arg6 : FVec F S1x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) : IVec S_ 1 :=
  let main_v0 : FVec F S1x128 .f32 := Host.absf main_arg6
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_v13 main_v16
-- ==== Kernel.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x1 : Shape := ⟨2, ![5000, 1]⟩
abbrev S5000x128 : Shape := ⟨2, ![5000, 128]⟩
abbrev S1600000x128 : Shape := ⟨2, ![1600000, 128]⟩
abbrev S128x1 : Shape := ⟨2, ![128, 1]⟩
abbrev S1x10 : Shape := ⟨2, ![1, 10]⟩

abbrev nBuf : Space → Nat
  | .hbm => 217
  | .vmem => 69
  | .smem => 0
  | _ => 0

abbrev hbmTy0_0 (i : Nat) : BufTy := match i % 128 with
  | 0 => ⟨S1600000, .i32⟩
  | 1 => ⟨S1600000, .i32⟩
  | 2 => ⟨S100000, .i32⟩
  | 3 => ⟨S1600000, .i32⟩
  | 4 => ⟨S1600000, .i32⟩
  | 5 => ⟨S100000, .i32⟩
  | 6 => ⟨S1x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x1, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S_, .f32⟩
  | 48 => ⟨S100000x1, .f32⟩
  | 49 => ⟨S1600000x1, .i32⟩
  | 50 => ⟨S100000x1, .f32⟩
  | 51 => ⟨S100000x128, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x128, .f32⟩
  | 100 => ⟨S_, .f32⟩
  | 101 => ⟨S100000, .f32⟩
  | 102 => ⟨S_, .f32⟩
  | 103 => ⟨S128, .f32⟩
  | 104 => ⟨S100000x1, .i32⟩
  | 105 => ⟨S128, .f32⟩
  | 106 => ⟨S_, .f32⟩
  | 107 => ⟨S128x128, .f32⟩
  | 108 => ⟨S100000x1, .i32⟩
  | 109 => ⟨S128x128, .f32⟩
  | 110 => ⟨S_, .f32⟩
  | 111 => ⟨S128, .f32⟩
  | 112 => ⟨S128, .f32⟩
  | 113 => ⟨S128x1, .f32⟩
  | 114 => ⟨S128x128, .f32⟩
  | 115 => ⟨S128x128, .f32⟩
  | 116 => ⟨S_, .f32⟩
  | 117 => ⟨S1600000, .f32⟩
  | 118 => ⟨S_, .f32⟩
  | 119 => ⟨S100000, .f32⟩
  | 120 => ⟨S1600000x1, .i32⟩
  | 121 => ⟨S100000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S100000, .f32⟩
  | _ => ⟨S1600000, .i32⟩

abbrev hbmTy0_1 (i : Nat) : BufTy := match i % 128 with
  | 0 => ⟨S100000, .f32⟩
  | 1 => ⟨S100000, .f32⟩
  | 2 => ⟨S100000x1, .f32⟩
  | 3 => ⟨S_, .f32⟩
  | 4 => ⟨S100000, .f32⟩
  | 5 => ⟨S100000, .f32⟩
  | 6 => ⟨S100000, .f32⟩
  | 7 => ⟨S100000x1, .f32⟩
  | 8 => ⟨S100000x1, .f32⟩
  | 9 => ⟨S100000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x1, .f32⟩
  | 19 => ⟨S_, .f32⟩
  | 20 => ⟨S100000x1, .f32⟩
  | 21 => ⟨S1600000x1, .i32⟩
  | 22 => ⟨S100000x1, .f32⟩
  | 23 => ⟨S100000x128, .f32⟩
  | 24 => ⟨S100000x128, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x128, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S_, .f32⟩
  | 73 => ⟨S100000, .f32⟩
  | 74 => ⟨S_, .f32⟩
  | 75 => ⟨S128, .f32⟩
  | 76 => ⟨S100000x1, .i32⟩
  | 77 => ⟨S128, .f32⟩
  | 78 => ⟨S_, .f32⟩
  | 79 => ⟨S128x128, .f32⟩
  | 80 => ⟨S100000x1, .i32⟩
  | 81 => ⟨S128x128, .f32⟩
  | 82 => ⟨S_, .f32⟩
  | 83 => ⟨S128, .f32⟩
  | 84 => ⟨S128, .f32⟩
  | 85 => ⟨S128x1, .f32⟩
  | 86 => ⟨S128x128, .f32⟩
  | 87 => ⟨S128x128, .f32⟩
  | 88 => ⟨S128x10, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S1x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x1, .f32⟩
  | .local _ .vmem, ⟨43, _⟩ => ⟨S5000x1, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S128x128, .f32⟩
  | .local _ .vmem, ⟨61, _⟩ => ⟨S128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S128x128, .f32⟩
  | .local _ .vmem, ⟨66, _⟩ => ⟨S128x10, .f32⟩
  | .local _ .vmem, ⟨67, _⟩ => ⟨S10, .f32⟩
  | .local _ .vmem, ⟨68, _⟩ => ⟨S128x10, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_cst_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_cst_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_21 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_22 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_24 : Ref sig .tc := ⟨.hbm, 138, rfl⟩
abbrev main_v96 : Ref sig .tc := ⟨.hbm, 139, rfl⟩
abbrev main_v97 : Ref sig .tc := ⟨.hbm, 140, rfl⟩
abbrev main_c_25 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_26 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_27 : Ref sig .tc := ⟨.hbm, 154, rfl⟩
abbrev main_v109 : Ref sig .tc := ⟨.hbm, 155, rfl⟩
abbrev main_v110 : Ref sig .tc := ⟨.hbm, 156, rfl⟩
abbrev main_c_28 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_29 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_c_30 : Ref sig .tc := ⟨.hbm, 170, rfl⟩
abbrev main_v122 : Ref sig .tc := ⟨.hbm, 171, rfl⟩
abbrev main_v123 : Ref sig .tc := ⟨.hbm, 172, rfl⟩
abbrev main_c_31 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_32 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_33 : Ref sig .tc := ⟨.hbm, 186, rfl⟩
abbrev main_v135 : Ref sig .tc := ⟨.hbm, 187, rfl⟩
abbrev main_v136 : Ref sig .tc := ⟨.hbm, 188, rfl⟩
abbrev main_c_34 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_35 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_36 : Ref sig .tc := ⟨.hbm, 200, rfl⟩
abbrev main_v146 : Ref sig .tc := ⟨.hbm, 201, rfl⟩
abbrev main_cst_37 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_38 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_39 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem1_0 : DmaSem sig := 65
abbrev cc8_sem2_0 : DmaSem sig := 66
abbrev cc8_sem3_0 : DmaSem sig := 67
abbrev cc8_sem4_0 : DmaSem sig := 68

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S5000x1_S5000x128 : S5000x1.Broadcasts S5000x128
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S128x128_S128x128 : S128x128.ShapeCasts S128x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S5000x1_S1x128_S5000x128_1_0_0_1_n_n_wf : DotDims.WF S5000x1 S1x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .f32 = 32 ∨ (Rect.block (s := S100000x1) S5000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x128.size a ≤ S128x128.size a
  hwx8_0 : ∀ i : grid8.Coords, EltTy.bits .f32 = 32 ∨ (Rect.block (s := S128x128) S128x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x10.size a ≤ S128x10.size a
  hwx8_2 : ∀ i : grid8.Coords, EltTy.bits .f32 = 32 ∨ (Rect.block (s := S128x10) S128x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S10.size a ≤ S10.size a
  hwx8_3 : ∀ i : grid8.Coords, EltTy.bits .f32 = 32 ∨ (Rect.block (s := S10) S10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x10.size a ≤ S128x10.size a
  hwx8_4 : ∀ i : grid8.Coords, EltTy.bits .f32 = 32 ∨ (Rect.block (s := S128x10) S128x10.size (cc8_transform_4 i) (hinb8_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v26) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v105) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v131) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v132) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v144) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v78) S128x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v157) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg14) S128x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg15) S10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158) S128x10.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S1600000 : Shape := ⟨1, ![1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S128x1 : Shape := ⟨2, ![128, 1]⟩
abbrev S1x10 : Shape := ⟨2, ![1, 10]⟩

abbrev nBuf : Space → Nat
  | .hbm => 284
  | .vmem => 0
  | .smem => 0
  | _ => 0

abbrev hbmTy0_0 (i : Nat) : BufTy := match i % 128 with
  | 0 => ⟨S1600000, .i32⟩
  | 1 => ⟨S1600000, .i32⟩
  | 2 => ⟨S100000, .i32⟩
  | 3 => ⟨S1600000, .i32⟩
  | 4 => ⟨S1600000, .i32⟩
  | 5 => ⟨S100000, .i32⟩
  | 6 => ⟨S1x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x1, .f32⟩
  | 37 => ⟨S100000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x1, .f32⟩
  | 47 => ⟨S_, .f32⟩
  | 48 => ⟨S100000x1, .f32⟩
  | 49 => ⟨S1600000x1, .i32⟩
  | 50 => ⟨S100000x1, .f32⟩
  | 51 => ⟨S100000x1, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S1600000, .i32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S100000, .f32⟩
  | 5 => ⟨S_, .f32⟩
  | 6 => ⟨S128, .f32⟩
  | 7 => ⟨S100000x1, .i32⟩
  | 8 => ⟨S128, .f32⟩
  | 9 => ⟨S_, .f32⟩
  | 10 => ⟨S128x128, .f32⟩
  | 11 => ⟨S100000x1, .i32⟩
  | 12 => ⟨S128x128, .f32⟩
  | 13 => ⟨S_, .f32⟩
  | 14 => ⟨S128, .f32⟩
  | 15 => ⟨S128, .f32⟩
  | 16 => ⟨S128x1, .f32⟩
  | 17 => ⟨S128x128, .f32⟩
  | 18 => ⟨S128x128, .f32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x1, .f32⟩
  | 40 => ⟨S100000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x1, .f32⟩
  | 50 => ⟨S_, .f32⟩
  | 51 => ⟨S100000x1, .f32⟩
  | 52 => ⟨S1600000x1, .i32⟩
  | 53 => ⟨S100000x1, .f32⟩
  | 54 => ⟨S100000x1, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S100000x128, .f32⟩
  | _ => ⟨S1600000, .i32⟩

abbrev hbmTy0_2 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S100000, .f32⟩
  | 8 => ⟨S_, .f32⟩
  | 9 => ⟨S128, .f32⟩
  | 10 => ⟨S100000x1, .i32⟩
  | 11 => ⟨S128, .f32⟩
  | 12 => ⟨S_, .f32⟩
  | 13 => ⟨S128x128, .f32⟩
  | 14 => ⟨S100000x1, .i32⟩
  | 15 => ⟨S128x128, .f32⟩
  | 16 => ⟨S_, .f32⟩
  | 17 => ⟨S128, .f32⟩
  | 18 => ⟨S128, .f32⟩
  | 19 => ⟨S128x1, .f32⟩
  | 20 => ⟨S128x128, .f32⟩
  | 21 => ⟨S128x128, .f32⟩
  | 22 => ⟨S128x128, .f32⟩
  | 23 => ⟨S128x128, .f32⟩
  | 24 => ⟨S128x10, .f32⟩
  | 25 => ⟨S1x10, .f32⟩
  | 26 => ⟨S128x10, .f32⟩
  | 27 => ⟨S128x10, .f32⟩
  | _ => ⟨S1600000, .i32⟩

abbrev hbmTy (i : Nat) : BufTy := match i / 128 with
  | 0 => hbmTy0_0 i
  | 1 => hbmTy0_1 i
  | 2 => hbmTy0_2 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_cst_19 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_23 : Ref sig .tc := ⟨.hbm, 147, rfl⟩
abbrev main_v106 : Ref sig .tc := ⟨.hbm, 148, rfl⟩
abbrev main_cst_24 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_25 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_26 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_27 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_28 : Ref sig .tc := ⟨.hbm, 169, rfl⟩
abbrev main_v123 : Ref sig .tc := ⟨.hbm, 170, rfl⟩
abbrev main_v124 : Ref sig .tc := ⟨.hbm, 171, rfl⟩
abbrev main_c_29 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_30 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_31 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_32 : Ref sig .tc := ⟨.hbm, 192, rfl⟩
abbrev main_v142 : Ref sig .tc := ⟨.hbm, 193, rfl⟩
abbrev main_v143 : Ref sig .tc := ⟨.hbm, 194, rfl⟩
abbrev main_c_33 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_34 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_35 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_c_36 : Ref sig .tc := ⟨.hbm, 216, rfl⟩
abbrev main_v162 : Ref sig .tc := ⟨.hbm, 217, rfl⟩
abbrev main_v163 : Ref sig .tc := ⟨.hbm, 218, rfl⟩
abbrev main_c_37 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_38 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_39 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_c_40 : Ref sig .tc := ⟨.hbm, 240, rfl⟩
abbrev main_v182 : Ref sig .tc := ⟨.hbm, 241, rfl⟩
abbrev main_v183 : Ref sig .tc := ⟨.hbm, 242, rfl⟩
abbrev main_c_41 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_42 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_cst_43 : Ref sig .tc := ⟨.hbm, 259, rfl⟩
abbrev main_v198 : Ref sig .tc := ⟨.hbm, 260, rfl⟩
abbrev main_v199 : Ref sig .tc := ⟨.hbm, 261, rfl⟩
abbrev main_cst_44 : Ref sig .tc := ⟨.hbm, 262, rfl⟩
abbrev main_v200 : Ref sig .tc := ⟨.hbm, 263, rfl⟩
abbrev main_cst_45 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_46 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_cst_47 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x128_S100000x128_1_0_0_1_n_n_wf : DotDims.WF S100000x1 S1x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  dot_S128x128_S128x10_S128x10_1_0_0_1_n_n_wf : DotDims.WF S128x128 S128x10 S128x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel's run with its three results named.

  The program is nine kernel launches among stretches of host operations.  Its run ends, on every device, with every
  unscoped buffer at the contents the last boundary of the chain of segments gives it; read at the three result
  buffers (the two graph readouts and the logits) and at the sixteen arguments, that is the statement below.  What
  those contents are, as functions of the arguments, is worked out in the modules that follow.
-/
import proofs.«134133_j74509092651322_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the results end at the last boundary's contents and the
    arguments as launched. -/
theorem run_values : θ_run defs (onTc (τ := τ) (main (F := F))) ⟨m, fun _ => 0, ρ⟩ (fun r => ∀ c : Dev nD,
      r.2.mem ((c.tc : Thread nD τ).loc main_v78) = W18 m ρ c (Proc.devRef .tc main_v78)
      ∧ r.2.mem ((c.tc : Thread nD τ).loc main_v157) = W18 m ρ c (Proc.devRef .tc main_v157)
      ∧ r.2.mem ((c.tc : Thread nD τ).loc main_v158) = W18 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v78 (by decide)), h c _ (mem_uc main_v157 (by decide)), h c _ (mem_uc main_v158 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.Run

end
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.Keep.lean ====
/-
  Which buffers a stretch of host operations or a kernel launch leaves alone.

  Every host operation of the program writes one buffer of its own and allocates nothing, so a stretch leaves every
  buffer outside the ones it writes as it found it; a kernel launch changes only its one output array (its four input
  arrays are never written back, and no other buffer is touched).  These two facts, per stretch and per launch, are
  what carries the arguments, the two normalising columns of a branch and the first readout from where they are
  produced to where they are read.
-/
import proofs.«134133_j74509092651322_1_alg».proof.Proof.Gen.KernelIdeal.Frame
import proofs.«134133_j74509092651322_1_alg».proof.Proof.LibTailOps
import Idealize.ShloMosaic.PureOps.Ideal

set_option maxRecDepth 16384

noncomputable section

namespace Cert.KernelIdeal.Keep

open Cert.KernelIdeal Cert.KernelIdeal.Gen Cert.LibTailOps
open Idealize.ShloMosaic Idealize.ShloMosaic.TcCoe Idealize.ShloMosaic.StableHlo Idealize.SL.Sem

/-- The sixteen arguments. -/
abbrev LA : List (Ref sig .tc) := [main_arg0, main_arg1, main_arg2, main_arg3, main_arg4, main_arg5, main_arg6, main_arg7, main_arg8, main_arg9, main_arg10, main_arg11, main_arg12, main_arg13, main_arg14, main_arg15]
/-- The arguments and the first branch's two normalising columns. -/
abbrev L1 : List (Ref sig .tc) := [main_arg0, main_arg1, main_arg2, main_arg3, main_arg4, main_arg5, main_arg6, main_arg7, main_arg8, main_arg9, main_arg10, main_arg11, main_arg12, main_arg13, main_arg14, main_arg15, main_v10, main_v14]
/-- The arguments, the first readout and the second branch's two normalising columns. -/
abbrev L2 : List (Ref sig .tc) := [main_arg0, main_arg1, main_arg2, main_arg3, main_arg4, main_arg5, main_arg6, main_arg7, main_arg8, main_arg9, main_arg10, main_arg11, main_arg12, main_arg13, main_arg14, main_arg15, main_v78, main_v89, main_v93]

theorem ops0_own : (hostOps0 : List (HloOp τ sig (Elt Ideal))).Forall (WritesOne fun r => r ∉ LA) := by
  writes_one_each
/-- Stretch 0 keeps the buffers of its class. -/
theorem keepH0 (V : Valuation τ sig (Elt Ideal)) {r : Ref sig .tc} (hr : r ∈ LA) :
    after hostOps0 V (Proc.devRef .tc r) = V (Proc.devRef .tc r) :=
  after_keeps hostOps0 V ops0_own fun h => h hr

theorem ops1_own : (hostOps1 : List (HloOp τ sig (Elt Ideal))).Forall (WritesOne fun r => r ∉ L1) := by
  writes_one_each
/-- Stretch 1 keeps the buffers of its class. -/
theorem keepH1 (V : Valuation τ sig (Elt Ideal)) {r : Ref sig .tc} (hr : r ∈ L1) :
    after hostOps1 V (Proc.devRef .tc r) = V (Proc.devRef .tc r) :=
  after_keeps hostOps1 V ops1_own fun h => h hr

theorem ops2_own : (hostOps2 : List (HloOp τ sig (Elt Ideal))).Forall (WritesOne fun r => r ∉ L1) := by
  writes_one_each
/-- Stretch 2 keeps the buffers of its class. -/
theorem keepH2 (V : Valuation τ sig (Elt Ideal)) {r : Ref sig .tc} (hr : r ∈ L1) :
    after hostOps2 V (Proc.devRef .tc r) = V (Proc.devRef .tc r) :=
  after_keeps hostOps2 V ops2_own fun h => h hr

theorem ops3_own : (hostOps3 : List (HloOp τ sig (Elt Ideal))).Forall (WritesOne fun r => r ∉ L1) := by
  writes_one_each
/-- Stretch 3 keeps the buffers of its class. -/
theorem keepH3 (V : Valuation τ sig (Elt Ideal)) {r : Ref sig .tc} (hr : r ∈ L1) :
    after hostOps3 V (Proc.devRef .tc r) = V (Proc.devRef .tc r) :=
  after_keeps hostOps3 V ops3_own fun h => h hr

theorem ops4_own : (hostOps4 : List (HloOp τ sig (Elt Ideal))).Forall (WritesOne fun r => r ∉ LA) := by
  writes_one_each
/-- Stretch 4 keeps the buffers of its class. -/
theorem keepH4 (V : Valuation τ sig (Elt Ideal)) {r : Ref sig .tc} (hr : r ∈ LA) :
    after hostOps4 V (Proc.devRef .tc r) = V (Proc.devRef .tc r) :=
  after_keeps hostOps4 V ops4_own fun h => h hr

theorem ops5_own : (hostOps5 : List (HloOp τ sig (Elt Ideal))).Forall (WritesOne fun r => r ∉ L2) := by
  writes_one_each
/-- Stretch 5 keeps the buffers of its class. -/
theorem keepH5 (V : Valuation τ sig (Elt Ideal)) {r : Ref sig .tc} (hr : r ∈ L2) :
    after hostOps5 V (Proc.devRef .tc r) = V (Proc.devRef .tc r) :=
  after_keeps hostOps5 V ops5_own fun h => h hr

theorem ops6_own : (hostOps6 : List (HloOp τ sig (Elt Ideal))).Forall (WritesOne fun r => r ∉ L2) := by
  writes_one_each
/-- Stretch 6 keeps the buffers of its class. -/
theorem keepH6 (V : Valuation τ sig (Elt Ideal)) {r : Ref sig .tc} (hr : r ∈ L2) :
    after hostOps6 V (Proc.devRef .tc r) = V (Proc.devRef .tc r) :=
  after_keeps hostOps6 V ops6_own fun h => h hr

theorem ops7_own : (hostOps7 : List (HloOp τ sig (Elt Ideal))).Forall (WritesOne fun r => r ∉ L2) := by
  writes_one_each
/-- Stretch 7 keeps the buffers of its class. -/
theorem keepH7 (V : Valuation τ sig (Elt Ideal)) {r : Ref sig .tc} (hr : r ∈ L2) :
    after hostOps7 V (Proc.devRef .tc r) = V (Proc.devRef .tc r) :=
  after_keeps hostOps7 V ops7_own fun h => h hr

theorem ops8_own : (hostOps8 : List (HloOp τ sig (Elt Ideal))).Forall (WritesOne fun r => r ∉ L2) := by
  writes_one_each
/-- Stretch 8 keeps the buffers of its class. -/
theorem keepH8 (V : Valuation τ sig (Elt Ideal)) {r : Ref sig .tc} (hr : r ∈ L2) :
    after hostOps8 V (Proc.devRef .tc r) = V (Proc.devRef .tc r) :=
  after_keeps hostOps8 V ops8_own fun h => h hr

variable (m : (ℓ : Loc nD τ sig) → Buf (Elt Ideal) ℓ) (ρ : Dev nD → PrngReg)

/-- Launch 0 changes its output array only. -/
theorem keepR0 (c : Dev nD) (b : Ref sig .tc) (hb : b ≠ main_v27) :
    W2 m ρ c (Proc.devRef .tc b) = W1 m ρ c (Proc.devRef .tc b) := by
  by_cases h : ∃ w, Pipeline.arrRef spec0 w = b
  swap
  · exact W2_of_ne m ρ c b fun w e => h ⟨w, e⟩
  · obtain ⟨w, rfl⟩ := h
    have hin : (cfg0.win w).isOut = false := by
      fin_cases w
      · rfl
      · rfl
      · rfl
      · rfl
      · exact absurd rfl hb
    exact (W2_arr m ρ c w).trans (((dat0 (V1 m ρ) c).arrAt_in w hin _).trans (A_eq0 (V1 m ρ) c w))

/-- Launch 1 changes its output array only. -/
theorem keepR1 (c : Dev nD) (b : Ref sig .tc) (hb : b ≠ main_v40) :
    W4 m ρ c (Proc.devRef .tc b) = W3 m ρ c (Proc.devRef .tc b) := by
  by_cases h : ∃ w, Pipeline.arrRef spec1 w = b
  swap
  · exact W4_of_ne m ρ c b fun w e => h ⟨w, e⟩
  · obtain ⟨w, rfl⟩ := h
    have hin : (cfg1.win w).isOut = false := by
      fin_cases w
      · rfl
      · rfl
      · rfl
      · rfl
      · exact absurd rfl hb
    exact (W4_arr m ρ c w).trans (((dat1 (V3 m ρ) c).arrAt_in w hin _).trans (A_eq1 (V3 m ρ) c w))

/-- Launch 2 changes its output array only. -/
theorem keepR2 (c : Dev nD) (b : Ref sig .tc) (hb : b ≠ main_v53) :
    W6 m ρ c (Proc.devRef .tc b) = W5 m ρ c (Proc.devRef .tc b) := by
  by_cases h : ∃ w, Pipeline.arrRef spec2 w = b
  swap
  · exact W6_of_ne m ρ c b fun w e => h ⟨w, e⟩
  · obtain ⟨w, rfl⟩ := h
    have hin : (cfg2.win w).isOut = false := by
      fin_cases w
      · rfl
      · rfl
      · rfl
      · rfl
      · exact absurd rfl hb
    exact (W6_arr m ρ c w).trans (((dat2 (V5 m ρ) c).arrAt_in w hin _).trans (A_eq2 (V5 m ρ) c w))

/-- Launch 3 changes its output array only. -/
theorem keepR3 (c : Dev nD) (b : Ref sig .tc) (hb : b ≠ main_v66) :
    W8 m ρ c (Proc.devRef .tc b) = W7 m ρ c (Proc.devRef .tc b) := by
  by_cases h : ∃ w, Pipeline.arrRef spec3 w = b
  swap
  · exact W8_of_ne m ρ c b fun w e => h ⟨w, e⟩
  · obtain ⟨w, rfl⟩ := h
    have hin : (cfg3.win w).isOut = false := by
      fin_cases w
      · rfl
      · rfl
      · rfl
      · rfl
      · exact absurd rfl hb
    exact (W8_arr m ρ c w).trans (((dat3 (V7 m ρ) c).arrAt_in w hin _).trans (A_eq3 (V7 m ρ) c w))

/-- Launch 4 changes its output array only. -/
theorem keepR4 (c : Dev nD) (b : Ref sig .tc) (hb : b ≠ main_v106) :
    W10 m ρ c (Proc.devRef .tc b) = W9 m ρ c (Proc.devRef .tc b) := by
  by_cases h : ∃ w, Pipeline.arrRef spec4 w = b
  swap
  · exact W10_of_ne m ρ c b fun w e => h ⟨w, e⟩
  · obtain ⟨w, rfl⟩ := h
    have hin : (cfg4.win w).isOut = false := by
      fin_cases w
      · rfl
      · rfl
      · rfl
      · rfl
      · exact absurd rfl hb
    exact (W10_arr m ρ c w).trans (((dat4 (V9 m ρ) c).arrAt_in w hin _).trans (A_eq4 (V9 m ρ) c w))

/-- Launch 5 changes its output array only. -/
theorem keepR5 (c : Dev nD) (b : Ref sig .tc) (hb : b ≠ main_v119) :
    W12 m ρ c (Proc.devRef .tc b) = W11 m ρ c (Proc.devRef .tc b) := by
  by_cases h : ∃ w, Pipeline.arrRef spec5 w = b
  swap
  · exact W12_of_ne m ρ c b fun w e => h ⟨w, e⟩
  · obtain ⟨w, rfl⟩ := h
    have hin : (cfg5.win w).isOut = false := by
      fin_cases w
      · rfl
      · rfl
      · rfl
      · rfl
      · exact absurd rfl hb
    exact (W12_arr m ρ c w).trans (((dat5 (V11 m ρ) c).arrAt_in w hin _).trans (A_eq5 (V11 m ρ) c w))

/-- Launch 6 changes its output array only. -/
theorem keepR6 (c : Dev nD) (b : Ref sig .tc) (hb : b ≠ main_v132) :
    W14 m ρ c (Proc.devRef .tc b) = W13 m ρ c (Proc.devRef .tc b) := by
  by_cases h : ∃ w, Pipeline.arrRef spec6 w = b
  swap
  · exact W14_of_ne m ρ c b fun w e => h ⟨w, e⟩
  · obtain ⟨w, rfl⟩ := h
    have hin : (cfg6.win w).isOut = false := by
      fin_cases w
      · rfl
      · rfl
      · rfl
      · rfl
      · exact absurd rfl hb
    exact (W14_arr m ρ c w).trans (((dat6 (V13 m ρ) c).arrAt_in w hin _).trans (A_eq6 (V13 m ρ) c w))

/-- Launch 7 changes its output array only. -/
theorem keepR7 (c : Dev nD) (b : Ref sig .tc) (hb : b ≠ main_v145) :
    W16 m ρ c (Proc.devRef .tc b) = W15 m ρ c (Proc.devRef .tc b) := by
  by_cases h : ∃ w, Pipeline.arrRef spec7 w = b
  swap
  · exact W16_of_ne m ρ c b fun w e => h ⟨w, e⟩
  · obtain ⟨w, rfl⟩ := h
    have hin : (cfg7.win w).isOut = false := by
      fin_cases w
      · rfl
      · rfl
      · rfl
      · rfl
      · exact absurd rfl hb
    exact (W16_arr m ρ c w).trans (((dat7 (V15 m ρ) c).arrAt_in w hin _).trans (A_eq7 (V15 m ρ) c w))

/-- Launch 8 changes its output array only. -/
theorem keepR8 (c : Dev nD) (b : Ref sig .tc) (hb : b ≠ main_v158) :
    W18 m ρ c (Proc.devRef .tc b) = W17 m ρ c (Proc.devRef .tc b) := by
  by_cases h : ∃ w, Pipeline.arrRef spec8 w = b
  swap
  · exact W18_of_ne m ρ c b fun w e => h ⟨w, e⟩
  · obtain ⟨w, rfl⟩ := h
    have hin : (cfg8.win w).isOut = false := by
      fin_cases w
      · rfl
      · rfl
      · rfl
      · rfl
      · exact absurd rfl hb
    exact (W18_arr m ρ c w).trans (((dat8 (V17 m ρ) c).arrAt_in w hin _).trans (A_eq8 (V17 m ρ) c w))

end Cert.KernelIdeal.Keep

end
-- ==== Proof.Spec.lean ====
/-
  Two graph-convolution branches and a classifier, written once as functions of the sixteen argument arrays.

  A branch takes the edge list (src, dst) and the node-to-graph map seg of a batch of graphs.  The out-degree and
  in-degree of a node are segment sums of ones over the edges; cs = rsqrt (max out_deg 1) and cd = rsqrt (max in_deg 1)
  are the two normalising columns; the first feature column is the in-degree.  A layer sends h to
      relu (((segment_sum over dst of (h * cs)[src]) * cd) @ W + b),
  four layers in a row (the first from one feature column to 128, the others 128 to 128), and the readout is the mean
  of the node rows of each graph: the segment sum over seg divided by max (count) 1.  The classifier is
  |hg1 - hg2| @ Wc + bc.  Every function below is the host's own operation, composed in the order the reference
  composes them, so that the reference's result is this term by unfolding alone.
-/
import proofs.«134133_j74509092651322_1_alg».proof.Proof.Gen.ReferenceIdeal
import Idealize.ShloMosaic.PureOps.Ideal

noncomputable section

namespace Cert.GcnSpec

open Idealize.ShloMosaic Cert.ReferenceIdeal Cert.ReferenceIdeal.Facts₀ Cert.ReferenceIdeal.Facts

variable {F : FTy → Type} [FloatOps F]

/-- The contents of a buffer of a given shape and element type, over the float values `F`. -/
abbrev C (F : FTy → Type) (b : BufTy) : Type := b.Contents (Elt F)

/-- One per edge. -/
def onesE : C F ⟨S1600000, .f32⟩ := broadcastInDim S1600000 ![] bcast_S_S1600000 (constant S_ .f32 0x3F800000#32)

/-- The number of edges with a given end at each node: a segment sum of ones. -/
def deg (idx : C F ⟨S1600000, .i32⟩) : C F ⟨S100000, .f32⟩ :=
  Host.scatterAdd scatter_S100000_S1600000x1_S1600000_n_0_0_1 (broadcastInDim S100000 ![] bcast_S_S100000 (constant S_ .f32 0x00000000#32))
    (broadcastInDim S1600000x1 ![0] bcast_S1600000_S1600000x1_0 idx) onesE

/-- A vector as a column. -/
def col (d : C F ⟨S100000, .f32⟩) : C F ⟨S100000x1, .f32⟩ := broadcastInDim S100000x1 ![0] bcast_S100000_S100000x1_0 d

/-- The normalising column rsqrt (max d 1). -/
def norm (d : C F ⟨S100000, .f32⟩) : C F ⟨S100000x1, .f32⟩ :=
  col (Host.rsqrt (maximumf d (broadcastInDim S100000 ![] bcast_S_S100000 (constant S_ .f32 0x3F800000#32))))

/-- The gather indices: a negative index wrapped around once, as a column. -/
def wrap (idx : C F ⟨S1600000, .i32⟩) : C F ⟨S1600000x1, .i32⟩ :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Messages along the edges summed into their targets, for one feature column. -/
def agg1 (src dst : C F ⟨S1600000, .i32⟩) (hc : C F ⟨S100000x1, .f32⟩) : C F ⟨S100000x1, .f32⟩ :=
  Host.scatterAdd scatter_S100000x1_S1600000x1_S1600000x1_1_0_0_1 (broadcastInDim S100000x1 ![] bcast_S_S100000x1 (constant S_ .f32 0x00000000#32))
    (broadcastInDim S1600000x1 ![0] bcast_S1600000_S1600000x1_0 dst)
    (Host.gather gather_S100000x1_S1600000x1_S1600000x1_1_0_n_n_0_1_11 hc (wrap src))

/-- The first layer's node update: one feature column to 128. -/
def layer1 (g cd : C F ⟨S100000x1, .f32⟩) (W : C F ⟨S1x128, .f32⟩) (b : C F ⟨S128, .f32⟩) : C F ⟨S100000x128, .f32⟩ :=
  maximumf (addf (Host.dotGeneral dot_S100000x1_S1x128_S100000x128_1_0_0_1_n_n none (mulf g cd) W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The rows of h, scaled by the source column, gathered along the edges. -/
def msgN (src : C F ⟨S1600000, .i32⟩) (h : C F ⟨S100000x128, .f32⟩) (cs : C F ⟨S100000x1, .f32⟩) : C F ⟨S1600000x128, .f32⟩ :=
  Host.gather gather_S100000x128_S1600000x1_S1600000x128_1_0_n_n_0_1_1128
    (mulf h (broadcastInDim S100000x128 ![0, 1] bcast_S100000x1_S100000x128_0_1 cs)) (wrap src)

/-- Messages along the edges summed into their targets, for 128 feature columns. -/
def aggN (src dst : C F ⟨S1600000, .i32⟩) (h : C F ⟨S100000x128, .f32⟩) (cs : C F ⟨S100000x1, .f32⟩) : C F ⟨S100000x128, .f32⟩ :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst) (msgN src h cs)

/-- A later layer's node update: 128 features to 128. -/
def layerN (g : C F ⟨S100000x128, .f32⟩) (cd : C F ⟨S100000x1, .f32⟩) (W : C F ⟨S128x128, .f32⟩) (b : C F ⟨S128, .f32⟩) : C F ⟨S100000x128, .f32⟩ :=
  maximumf (addf (Host.dotGeneral dot_S100000x128_S128x128_S100000x128_1_0_0_1_n_n none
        (mulf g (broadcastInDim S100000x128 ![0, 1] bcast_S100000x1_S100000x128_0_1 cd)) W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The mean of the node rows of each graph. -/
def readout (h : C F ⟨S100000x128, .f32⟩) (seg : C F ⟨S100000, .i32⟩) : C F ⟨S128x128, .f32⟩ :=
  Host.divf (Host.scatterAdd scatter_S128x128_S100000x1_S100000x128_1_0_0_1 (broadcastInDim S128x128 ![] bcast_S_S128x128 (constant S_ .f32 0x00000000#32))
      (broadcastInDim S100000x1 ![0] bcast_S100000_S100000x1_0 seg) h)
    (broadcastInDim S128x128 ![0, 1] bcast_S128x1_S128x128_0_1 (broadcastInDim S128x1 ![0] bcast_S128_S128x1_0
      (maximumf (Host.scatterAdd scatter_S128_S100000x1_S100000_n_0_0_1 (broadcastInDim S128 ![] bcast_S_S128 (constant S_ .f32 0x00000000#32))
          (broadcastInDim S100000x1 ![0] bcast_S100000_S100000x1_0 seg)
          (broadcastInDim S100000 ![] bcast_S_S100000 (constant S_ .f32 0x3F800000#32)))
        (broadcastInDim S128 ![] bcast_S_S128 (constant S_ .f32 0x3F800000#32)))))

/-- The classifier on the two readouts. -/
def logits (hg1 hg2 : C F ⟨S128x128, .f32⟩) (Wc : C F ⟨S128x10, .f32⟩) (bc : C F ⟨S10, .f32⟩) : C F ⟨S128x10, .f32⟩ :=
  addf (Host.dotGeneral dot_S128x128_S128x10_S128x10_1_0_0_1_n_n none (Host.absf (subf hg1 hg2)) Wc)
    (broadcastInDim S128x10 ![0, 1] bcast_S1x10_S128x10_0_1 (broadcastInDim S1x10 ![1] bcast_S10_S1x10_1 bc))

/-- The node features after the first layer. -/
def feat1 (src dst : C F ⟨S1600000, .i32⟩) (W1 : C F ⟨S1x128, .f32⟩) (b1 : C F ⟨S128, .f32⟩) : C F ⟨S100000x128, .f32⟩ :=
  layer1 (agg1 src dst (mulf (col (deg dst)) (norm (deg src)))) (norm (deg dst)) W1 b1

/-- After the second layer. -/
def feat2 (src dst : C F ⟨S1600000, .i32⟩) (W1 : C F ⟨S1x128, .f32⟩) (b1 : C F ⟨S128, .f32⟩)
    (W2 : C F ⟨S128x128, .f32⟩) (b2 : C F ⟨S128, .f32⟩) : C F ⟨S100000x128, .f32⟩ :=
  layerN (aggN src dst (feat1 src dst W1 b1) (norm (deg src))) (norm (deg dst)) W2 b2

/-- After the third layer. -/
def feat3 (src dst : C F ⟨S1600000, .i32⟩) (W1 : C F ⟨S1x128, .f32⟩) (b1 : C F ⟨S128, .f32⟩)
    (W2 : C F ⟨S128x128, .f32⟩) (b2 : C F ⟨S128, .f32⟩) (W3 : C F ⟨S128x128, .f32⟩) (b3 : C F ⟨S128, .f32⟩) : C F ⟨S100000x128, .f32⟩ :=
  layerN (aggN src dst (feat2 src dst W1 b1 W2 b2) (norm (deg src))) (norm (deg dst)) W3 b3

/-- After the fourth layer. -/
def feat4 (src dst : C F ⟨S1600000, .i32⟩) (W1 : C F ⟨S1x128, .f32⟩) (b1 : C F ⟨S128, .f32⟩)
    (W2 : C F ⟨S128x128, .f32⟩) (b2 : C F ⟨S128, .f32⟩) (W3 : C F ⟨S128x128, .f32⟩) (b3 : C F ⟨S128, .f32⟩)
    (W4 : C F ⟨S128x128, .f32⟩) (b4 : C F ⟨S128, .f32⟩) : C F ⟨S100000x128, .f32⟩ :=
  layerN (aggN src dst (feat3 src dst W1 b1 W2 b2 W3 b3) (norm (deg src))) (norm (deg dst)) W4 b4

/-- One branch: four layers and the readout. -/
def branch (src dst : C F ⟨S1600000, .i32⟩) (seg : C F ⟨S100000, .i32⟩) (W1 : C F ⟨S1x128, .f32⟩) (b1 : C F ⟨S128, .f32⟩)
    (W2 : C F ⟨S128x128, .f32⟩) (b2 : C F ⟨S128, .f32⟩) (W3 : C F ⟨S128x128, .f32⟩) (b3 : C F ⟨S128, .f32⟩)
    (W4 : C F ⟨S128x128, .f32⟩) (b4 : C F ⟨S128, .f32⟩) : C F ⟨S128x128, .f32⟩ :=
  readout (feat4 src dst W1 b1 W2 b2 W3 b3 W4 b4) seg

end Cert.GcnSpec

end
-- ==== Proof.Stages.lean ====
/-
  What each stretch of host operations of the kernel's program computes, as the specification's functions of the
  buffers it reads.

  The stretches are the reference's own operations around the kernel launches: before the first launch of a branch,
  the degree counts, the two normalising columns and the first aggregation; between two launches, one scaling by the
  source column, one gather along the edges and one scatter-add into the targets; after the last launch of a branch,
  the readout.  Each result is read off the list of operations and is the specification's function by unfolding.
-/
import proofs.«134133_j74509092651322_1_alg».proof.Proof.Gen.KernelIdeal.Launch
import proofs.«134133_j74509092651322_1_alg».proof.Proof.Spec
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo

variable {F : FTy → Type} [FloatOps F] (V : Valuation τ sig (Elt F))

set_option maxHeartbeats 2000000 in
theorem s0_cs : after hostOps0 V (Proc.devRef .tc main_v10) = GcnSpec.norm (F := F) (GcnSpec.deg (V (Proc.devRef .tc main_arg0))) := by
  simp only [hostOps0]
  after_results_simp
  rfl
set_option maxHeartbeats 2000000 in
theorem s0_cd : after hostOps0 V (Proc.devRef .tc main_v14) = GcnSpec.norm (F := F) (GcnSpec.deg (V (Proc.devRef .tc main_arg1))) := by
  simp only [hostOps0]
  after_results_simp
  rfl
set_option maxHeartbeats 2000000 in
theorem s0_agg : after hostOps0 V (Proc.devRef .tc main_v26) = GcnSpec.agg1 (F := F) (V (Proc.devRef .tc main_arg0)) (V (Proc.devRef .tc main_arg1)) (mulf (GcnSpec.col (GcnSpec.deg (V (Proc.devRef .tc main_arg1)))) (GcnSpec.norm (GcnSpec.deg (V (Proc.devRef .tc main_arg0))))) := by
  simp only [hostOps0]
  after_results_simp
  rfl
set_option maxHeartbeats 2000000 in
theorem s1_agg : after hostOps1 V (Proc.devRef .tc main_v39) = GcnSpec.aggN (F := F) (V (Proc.devRef .tc main_arg0)) (V (Proc.devRef .tc main_arg1)) (V (Proc.devRef .tc main_v27)) (V (Proc.devRef .tc main_v10)) := by
  simp only [hostOps1]
  after_results_simp
  rfl
set_option maxHeartbeats 2000000 in
theorem s2_agg : after hostOps2 V (Proc.devRef .tc main_v52) = GcnSpec.aggN (F := F) (V (Proc.devRef .tc main_arg0)) (V (Proc.devRef .tc main_arg1)) (V (Proc.devRef .tc main_v40)) (V (Proc.devRef .tc main_v10)) := by
  simp only [hostOps2]
  after_results_simp
  rfl
set_option maxHeartbeats 2000000 in
theorem s3_agg : after hostOps3 V (Proc.devRef .tc main_v65) = GcnSpec.aggN (F := F) (V (Proc.devRef .tc main_arg0)) (V (Proc.devRef .tc main_arg1)) (V (Proc.devRef .tc main_v53)) (V (Proc.devRef .tc main_v10)) := by
  simp only [hostOps3]
  after_results_simp
  rfl
set_option maxHeartbeats 2000000 in
theorem s5_agg : after hostOps5 V (Proc.devRef .tc main_v118) = GcnSpec.aggN (F := F) (V (Proc.devRef .tc main_arg3)) (V (Proc.devRef .tc main_arg4)) (V (Proc.devRef .tc main_v106)) (V (Proc.devRef .tc main_v89)) := by
  simp only [hostOps5]
  after_results_simp
  rfl
set_option maxHeartbeats 2000000 in
theorem s6_agg : after hostOps6 V (Proc.devRef .tc main_v131) = GcnSpec.aggN (F := F) (V (Proc.devRef .tc main_arg3)) (V (Proc.devRef .tc main_arg4)) (V (Proc.devRef .tc main_v119)) (V (Proc.devRef .tc main_v89)) := by
  simp only [hostOps6]
  after_results_simp
  rfl
set_option maxHeartbeats 2000000 in
theorem s7_agg : after hostOps7 V (Proc.devRef .tc main_v144) = GcnSpec.aggN (F := F) (V (Proc.devRef .tc main_arg3)) (V (Proc.devRef .tc main_arg4)) (V (Proc.devRef .tc main_v132)) (V (Proc.devRef .tc main_v89)) := by
  simp only [hostOps7]
  after_results_simp
  rfl
set_option maxHeartbeats 4000000 in
theorem s4_out : after hostOps4 V (Proc.devRef .tc main_v78) = GcnSpec.readout (F := F) (V (Proc.devRef .tc main_v66)) (V (Proc.devRef .tc main_arg2)) := by
  simp only [hostOps4]
  after_results_simp
  rfl
set_option maxHeartbeats 4000000 in
theorem s4_cs : after hostOps4 V (Proc.devRef .tc main_v89) = GcnSpec.norm (F := F) (GcnSpec.deg (V (Proc.devRef .tc main_arg3))) := by
  simp only [hostOps4]
  after_results_simp
  rfl
set_option maxHeartbeats 4000000 in
theorem s4_cd : after hostOps4 V (Proc.devRef .tc main_v93) = GcnSpec.norm (F := F) (GcnSpec.deg (V (Proc.devRef .tc main_arg4))) := by
  simp only [hostOps4]
  after_results_simp
  rfl
set_option maxHeartbeats 4000000 in
theorem s4_agg : after hostOps4 V (Proc.devRef .tc main_v105) = GcnSpec.agg1 (F := F) (V (Proc.devRef .tc main_arg3)) (V (Proc.devRef .tc main_arg4)) (mulf (GcnSpec.col (GcnSpec.deg (V (Proc.devRef .tc main_arg4)))) (GcnSpec.norm (GcnSpec.deg (V (Proc.devRef .tc main_arg3))))) := by
  simp only [hostOps4]
  after_results_simp
  rfl
set_option maxHeartbeats 2000000 in
theorem s8_out : after hostOps8 V (Proc.devRef .tc main_v157) = GcnSpec.readout (F := F) (V (Proc.devRef .tc main_v145)) (V (Proc.devRef .tc main_arg5)) := by
  simp only [hostOps8]
  after_results_simp
  rfl

end Cert.KernelIdeal.Stages

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«134133_j74509092651322_1_alg».proof.Proof.LibDense
import proofs.«134133_j74509092651322_1_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.LibScaledDense.lean ====
/-
  The node update of one graph-convolution layer and the classifier, as functions of rows at the ideal values.

  The update scales row r of the aggregated messages x by the target-side factor cd(r), applies a dense map and relu:
      update(r, n) = max (sum_k (x(r, k) * cd(r)) * w(k, n) + b(n)) 0.
  Entry (r, n) depends on row r of x and on cd(r) only, which is what lets a kernel that walks over blocks of rows be
  compared with a reference that treats all rows at once.  Two spellings are read to this one function: the kernel's
  (casts to the same shape, the factor repeated along the lanes, operands narrowed to bf16, which is the identity at
  the ideal values, a matrix product into a zero splat, the bias cast to one row and repeated) and the host's
  (broadcast_in_dim, dot_general, a broadcast zero).  The classifier is the dense map of |a - b|.  Nothing here needs
  finiteness: no law of arithmetic is used beyond 0 + x = x.  All of it is generic in the extents.
-/
import proofs.«134133_j74509092651322_1_alg».proof.Proof.LibLayers

noncomputable section

open scoped BigOperators

namespace Cert.LibScaledDense

open Idealize.ShloMosaic Idealize.ShloMosaic.ValueIdx Cert.LibDense Cert.LibLayers Cert.LibLayout

/-- Row r of x scaled by the factor of row r. -/
def scaled {A K : Nat} (x : (⟨2, ![A, K]⟩ : Shape).Idx → EReal) (cd : (⟨2, ![A, 1]⟩ : Shape).Idx → EReal) :
    (⟨2, ![A, K]⟩ : Shape).Idx → EReal := fun i => x i * cd (ix2 (i 0 : Fin A) (0 : Fin 1))

/-- The node update on rows. -/
def update (A K N : Nat) (x : (⟨2, ![A, K]⟩ : Shape).Idx → EReal) (cd : (⟨2, ![A, 1]⟩ : Shape).Idx → EReal)
    (w : (⟨2, ![K, N]⟩ : Shape).Idx → EReal) (b : (⟨1, ![N]⟩ : Shape).Idx → EReal) : (⟨2, ![A, N]⟩ : Shape).Idx → EReal :=
  reluDense A K N (scaled x cd) w b

/-- An entry of the update depends on one row of the messages and that row's factor. -/
theorem update_row {A A' K N : Nat} (x : (⟨2, ![A, K]⟩ : Shape).Idx → EReal) (x' : (⟨2, ![A', K]⟩ : Shape).Idx → EReal)
    (cd : (⟨2, ![A, 1]⟩ : Shape).Idx → EReal) (cd' : (⟨2, ![A', 1]⟩ : Shape).Idx → EReal)
    (w : (⟨2, ![K, N]⟩ : Shape).Idx → EReal) (b : (⟨1, ![N]⟩ : Shape).Idx → EReal) (p : Fin A) (r : Fin A') (q : Fin N)
    (hx : ∀ k : Fin K, x (ix2 p k) = x' (ix2 r k)) (hc : cd (ix2 p (0 : Fin 1)) = cd' (ix2 r (0 : Fin 1))) :
    update A K N x cd w b (ix2 p q) = update A' K N x' cd' w b (ix2 r q) :=
  reluDense_row _ _ w b p r q fun k => by
    show x (ix2 p k) * cd (ix2 p (0 : Fin 1)) = x' (ix2 r k) * cd' (ix2 r (0 : Fin 1))
    rw [hx k, hc]

/-- The kernel's scaling with the factor repeated along the lanes. -/
theorem scaled_kernelN {A K : Nat} (x : FVec Ideal ⟨2, ![A, K]⟩ .f32) (cd : FVec Ideal ⟨2, ![A, 1]⟩ .f32)
    (hx : (⟨2, ![A, K]⟩ : Shape).ShapeCasts ⟨2, ![A, K]⟩) (hc : (⟨2, ![A, 1]⟩ : Shape).ShapeCasts ⟨2, ![A, 1]⟩)
    (hbk : (⟨2, ![A, 1]⟩ : Shape).Broadcasts ⟨2, ![A, K]⟩) :
    mulf (shapeCast ⟨2, ![A, K]⟩ x hx) (broadcastTo ⟨2, ![A, K]⟩ (shapeCast ⟨2, ![A, 1]⟩ cd hc) hbk) = scaled x cd := by
  rw [shapeCast_self, shapeCast_self]
  funext i
  obtain ⟨p, k, rfl⟩ : ∃ (p : Fin A) (k : Fin K), i = ix2 p k := ⟨i 0, i 1, eq_ix2 i⟩
  rw [mulf_apply, broadcastTo_a1_ab_apply cd hbk p k]
  rfl

/-- The kernel's scaling of one feature column. -/
theorem scaled_kernel1 {A : Nat} (x : FVec Ideal ⟨2, ![A, 1]⟩ .f32) (cd : FVec Ideal ⟨2, ![A, 1]⟩ .f32)
    (hx : (⟨2, ![A, 1]⟩ : Shape).ShapeCasts ⟨2, ![A, 1]⟩) :
    mulf (shapeCast ⟨2, ![A, 1]⟩ x hx) (shapeCast ⟨2, ![A, 1]⟩ cd hx) = scaled x cd := by
  rw [shapeCast_self, shapeCast_self]
  funext i
  obtain ⟨p, k, rfl⟩ : ∃ (p : Fin A) (k : Fin 1), i = ix2 p k := ⟨i 0, i 1, eq_ix2 i⟩
  have hk : k = 0 := Fin.ext (by omega)
  subst hk
  rfl

/-- The host's scaling with the factor broadcast along the columns. -/
theorem scaled_hostN {A K : Nat} (x : FVec Ideal ⟨2, ![A, K]⟩ .f32) (cd : FVec Ideal ⟨2, ![A, 1]⟩ .f32)
    (hbc : (⟨2, ![A, 1]⟩ : Shape).BroadcastsInDim ⟨2, ![A, K]⟩ ![0, 1]) :
    mulf x (broadcastInDim ⟨2, ![A, K]⟩ ![0, 1] hbc cd) = scaled x cd := by
  funext i
  obtain ⟨p, k, rfl⟩ : ∃ (p : Fin A) (k : Fin K), i = ix2 p k := ⟨i 0, i 1, eq_ix2 i⟩
  rw [mulf_apply, col2_host hbc cd p k]
  rfl

/-- The host's scaling of one feature column. -/
theorem scaled_host1 {A : Nat} (x : FVec Ideal ⟨2, ![A, 1]⟩ .f32) (cd : FVec Ideal ⟨2, ![A, 1]⟩ .f32) :
    mulf x cd = scaled x cd := by
  funext i
  obtain ⟨p, k, rfl⟩ : ∃ (p : Fin A) (k : Fin 1), i = ix2 p k := ⟨i 0, i 1, eq_ix2 i⟩
  have hk : k = 0 := Fin.ext (by omega)
  subst hk
  rfl

/-- The kernel's update from a scaled operand. -/
theorem update_kernel {A K N : Nat} (xs : FVec Ideal ⟨2, ![A, K]⟩ .f32) (x : FVec Ideal ⟨2, ![A, K]⟩ .f32)
    (cd : FVec Ideal ⟨2, ![A, 1]⟩ .f32) (hxs : xs = scaled x cd) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    maximumf (addf (matmul (DotDims.plain A K N) none (truncf .bf16 xs hlt) (truncf .bf16 w hlt) (constant ⟨2, ![A, N]⟩ .f32 0x00000000#32))
        (broadcastTo ⟨2, ![A, N]⟩ (shapeCast ⟨2, ![1, N]⟩ b h1) hb))
      (broadcast ⟨2, ![A, N]⟩ (Scalar.ofBits (F := Ideal) .f32 0x00000000#32)) = update A K N x cd w b := by
  rw [relu_kernel, dense_kernel xs w b hlt h1 hb, hxs]
  rfl

/-- The host's update from a scaled operand. -/
theorem update_host {A K N : Nat} (xs : FVec Ideal ⟨2, ![A, K]⟩ .f32) (x : FVec Ideal ⟨2, ![A, K]⟩ .f32)
    (cd : FVec Ideal ⟨2, ![A, 1]⟩ .f32) (hxs : xs = scaled x cd) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none xs w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = update A K N x cd w b := by
  rw [reluDense_host xs w b hd hbc hS, hxs]
  rfl

/-- The classifier on rows: the dense map of the absolute difference. -/
def classify (A K N : Nat) (a a' : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  dense A K N (fun i => max (a i - a' i) (-(a i - a' i))) w b

/-- The kernel's classifier. -/
theorem classify_kernel {A K N : Nat} (a a' : FVec Ideal ⟨2, ![A, K]⟩ .f32) (w : FVec Ideal ⟨2, ![K, N]⟩ .f32)
    (b : FVec Ideal ⟨1, ![N]⟩ .f32) (hlt : FTy.bits .bf16 < FTy.bits .f32)
    (hx : (⟨2, ![A, K]⟩ : Shape).ShapeCasts ⟨2, ![A, K]⟩)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 (absf (subf (shapeCast ⟨2, ![A, K]⟩ a hx) (shapeCast ⟨2, ![A, K]⟩ a' hx))) hlt)
        (truncf .bf16 w hlt) (constant ⟨2, ![A, N]⟩ .f32 0x00000000#32))
      (broadcastTo ⟨2, ![A, N]⟩ (shapeCast ⟨2, ![1, N]⟩ b h1) hb) = classify A K N a a' w b := by
  rw [dense_kernel _ w b hlt h1 hb, shapeCast_self, shapeCast_self]
  rfl

/-- The host's classifier. -/
theorem classify_host {A K N : Nat} (a a' : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none (Host.absf (subf a a')) w)
      (broadcastInDim ⟨2, ![A, N]⟩ ![0, 1] hbc (broadcastInDim ⟨2, ![1, N]⟩ ![1] hd b)) = classify A K N a a' w b := by
  rw [dense_host _ w b hd hbc]
  rfl

end Cert.LibScaledDense

end
-- ==== Proof.Regions.lean ====
/-
  What each kernel launch leaves in its output array, as one function of the arrays it finds at entry.

  A node-update launch walks over twenty blocks of 5000 rows.  At a block it reads the block's rows of the
  aggregated messages and of the target-side factor, the whole weight matrix and the whole bias, and stores
  relu ((x * cd) @ w + b) into the block's rows of the output.  Entry (r, n) of that result depends on row r of the
  messages and on cd(r) only, so the block written at a point is the point's rows of the update of ALL rows; the
  twenty blocks tile the output array, which therefore ends at the update of all rows: the host's own spelling of
  the layer.  The classifier launch has one point whose blocks are the whole arrays.
-/
import proofs.«134133_j74509092651322_1_alg».proof.Proof.Gen.KernelIdeal.Frame
import proofs.«134133_j74509092651322_1_alg».proof.Proof.Spec
import proofs.«134133_j74509092651322_1_alg».proof.Proof.LibScaledDense
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The host's spelling of a layer is the update of all rows -/

theorem layerN_eq (g : S100000x128.Idx → EReal) (cd : S100000x1.Idx → EReal) (W : S128x128.Idx → EReal) (b : S128.Idx → EReal) :
    GcnSpec.layerN (F := Ideal) g cd W b = LibScaledDense.update 100000 128 128 g cd W b :=
  LibScaledDense.update_host _ g cd (LibScaledDense.scaled_hostN g cd _) W b _ _ _

theorem layer1_eq (g : S100000x1.Idx → EReal) (cd : S100000x1.Idx → EReal) (W : S1x128.Idx → EReal) (b : S128.Idx → EReal) :
    GcnSpec.layer1 (F := Ideal) g cd W b = LibScaledDense.update 100000 1 128 g cd W b :=
  LibScaledDense.update_host _ g cd (LibScaledDense.scaled_host1 g cd) W b _ _ _

theorem logits_eq (a a' : S128x128.Idx → EReal) (W : S128x10.Idx → EReal) (b : S10.Idx → EReal) :
    GcnSpec.logits (F := Ideal) a a' W b = LibScaledDense.classify 128 128 10 a a' W b :=
  LibScaledDense.classify_host a a' W b _ _

/-! ## Launch 0 -/

/-- The body's stored value is the update of the block's rows (one feature column). -/
theorem pay0 (x0 : Vec Ideal S5000x1 .f32) (x1 : Vec Ideal S5000x1 .f32) (x2 : Vec Ideal S1x128 .f32) (x3 : Vec Ideal S128 .f32) :
    k0_pay1 x0 x1 x2 x3 = LibScaledDense.update 5000 1 128 x0 x1 x2 x3 :=
  LibScaledDense.update_kernel _ x0 x1 (LibScaledDense.scaled_kernel1 x0 x1 _) x2 x3 _ _ _

/-- The block index maps over the grid. -/
theorem idx_facts0 : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0 ∧ win0_3.index t (0 : Fin 1) = 0
    ∧ win0_4.index t (1 : Fin 2) = 0 ∧ win0_4.index t (0 : Fin 2) < 20 :=
  (by decide +kernel : ∀ t : Fin grid0.N, _)

/-- Every block of rows is some point's. -/
theorem idx_onto0 : ∀ q0 : Fin 20, ∃ t : Fin cfg0.N, win0_4.index t = ![q0.val, 0] :=
  (by decide +kernel : ∀ q0 : Fin 20, ∃ t : Fin grid0.N, win0_4.index t = ![q0.val, 0])

section
variable (V : (c : Dev nD) → (b : Ref sig .tc) → Buf (Elt Ideal) ((c : Thread nD τ).loc b)) (c : Dev nD)

/-- What point `t` writes back is the block's rows of the update of all rows. -/
theorem flushed0 (t : Fin cfg0.N) :
    (dat0 V c).flushed 4 t = ((cfg0.win 4).blk t).view.read (Elt Ideal)
      (LibScaledDense.update 100000 1 128 (V c main_v26) (V c main_v14) (V c main_arg6) (V c main_arg7)) := by
  show (cfg0.win 4).cut (grid0.coords t) ((dat0 V c).after 4 t) = _
  rw [after0_4]
  unfold out0_4
  rw [View.canon_unit_zero hz2]
  simp only [View.ld_unit_zero (S := S5000x1) hz2, View.ld_unit_zero (S := S1x128) hz2, View.ld_unit_zero (S := S128) hz1]
  rw [pay0]
  obtain ⟨e00, e01, e10, e11, e20, e21, e30, e41, e4lt⟩ := idx_facts0 t
  have hW : (iblk0 V c 2 t : S1x128.Idx → EReal) = V c main_arg6 := by
    funext y
    show V c main_arg6 (((cfg0.win 2).blk t).view.emb y) = V c main_arg6 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  have hb : (iblk0 V c 3 t : S128.Idx → EReal) = V c main_arg7 := by
    funext y
    show V c main_arg7 (((cfg0.win 3).blk t).view.emb y) = V c main_arg7 y
    refine congrArg _ (funext fun a => Fin.ext ?_)
    match a with
    | ⟨0, _⟩ => show win0_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win0_4.index t (0 : Fin 2) * 5000 + p.val < 100000 := by have := p.isLt; omega
  show LibScaledDense.update 5000 1 128 _ _ _ _ (ix2 p q) = LibScaledDense.update 100000 1 128 _ _ _ _ (((cfg0.win 4).blk t).view.emb (ix2 p q))
  have hemb : ((cfg0.win 4).blk t).view.emb (ix2 p q) = (ix2 (⟨win0_4.index t (0 : Fin 2) * 5000 + p.val, hr⟩ : Fin 100000) q : S100000x128.Idx) := by
    funext a
    apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  rw [hemb]
  refine LibScaledDense.update_row (iblk0 V c 0 t) (V c main_v26) (iblk0 V c 1 t) (V c main_v14) (V c main_arg6) (V c main_arg7) p ⟨_, hr⟩ q (fun kk => ?_) ?_
  · show V c main_v26 (((cfg0.win 0).blk t).view.emb (ix2 p kk)) = V c main_v26 (ix2 _ kk)
    refine congrArg _ (funext fun a => Fin.ext ?_)
    match a with
    | ⟨0, _⟩ => show win0_0.index t (0 : Fin 2) * 5000 + 1 * p.val = win0_4.index t (0 : Fin 2) * 5000 + p.val; omega
    | ⟨1, _⟩ => show win0_0.index t (1 : Fin 2) * 1 + 1 * kk.val = kk.val; omega
  · show V c main_v14 (((cfg0.win 1).blk t).view.emb (ix2 p (0 : Fin 1))) = V c main_v14 (ix2 _ (0 : Fin 1))
    refine congrArg _ (funext fun a => Fin.ext ?_)
    match a with
    | ⟨0, _⟩ => show win0_1.index t (0 : Fin 2) * 5000 + 1 * p.val = win0_4.index t (0 : Fin 2) * 5000 + p.val; omega
    | ⟨1, _⟩ => show win0_1.index t (1 : Fin 2) * 1 + 1 * 0 = 0; omega

/-- An index of the output array is in point `t`'s block iff each coordinate is in the block's range. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v27).slice (win0_4.rect t)).set ↔ _
  rw [View.set_slice_whole, Rect.mem_set_unit]
  exact Iff.rfl

/-- The output array after the launch is the host's first layer of the arrays found at entry. -/
theorem arr0 : (dat0 V c).arrAt 4 cfg0.N = GcnSpec.layer1 (F := Ideal) (V c main_v26) (V c main_v14) (V c main_arg6) (V c main_arg7) := by
  rw [layer1_eq]
  refine (dat0 V c).arrAt_eq_of_cover 4 _ (fun t _ => flushed0 V c t) fun i => ?_
  have hi0 : (i 0).val < 100000 := (i 0).isLt
  have hi1 : (i 1).val < 128 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

end

/-! ## Launch 1 -/

/-- The body's stored value is the update of the block's rows. -/
theorem pay1 (x0 : Vec Ideal S5000x128 .f32) (x1 : Vec Ideal S5000x1 .f32) (x2 : Vec Ideal S128x128 .f32) (x3 : Vec Ideal S128 .f32) :
    k1_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts1 : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0 ∧ win1_3.index t (0 : Fin 1) = 0
    ∧ win1_4.index t (1 : Fin 2) = 0 ∧ win1_4.index t (0 : Fin 2) < 20 :=
  (by decide +kernel : ∀ t : Fin grid1.N, _)

/-- Every block of rows is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

section
variable (V : (c : Dev nD) → (b : Ref sig .tc) → Buf (Elt Ideal) ((c : Thread nD τ).loc b)) (c : Dev nD)

/-- What point `t` writes back is the block's rows of the update of all rows. -/
theorem flushed1 (t : Fin cfg1.N) :
    (dat1 V c).flushed 4 t = ((cfg1.win 4).blk t).view.read (Elt Ideal)
      (LibScaledDense.update 100000 128 128 (V c main_v39) (V c main_v14) (V c main_arg8) (V c main_arg9)) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S5000x1) hz2, View.ld_unit_zero (S := S128x128) hz2, View.ld_unit_zero (S := S128) hz1]
  rw [pay1]
  obtain ⟨e00, e01, e10, e11, e20, e21, e30, e41, e4lt⟩ := idx_facts1 t
  have hW : (iblk1 V c 2 t : S128x128.Idx → EReal) = V c main_arg8 := by
    funext y
    show V c main_arg8 (((cfg1.win 2).blk t).view.emb y) = V c main_arg8 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hb : (iblk1 V c 3 t : S128.Idx → EReal) = V c main_arg9 := by
    funext y
    show V c main_arg9 (((cfg1.win 3).blk t).view.emb y) = V c main_arg9 y
    refine congrArg _ (funext fun a => Fin.ext ?_)
    match a with
    | ⟨0, _⟩ => show win1_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win1_4.index t (0 : Fin 2) * 5000 + p.val < 100000 := by have := p.isLt; omega
  show LibScaledDense.update 5000 128 128 _ _ _ _ (ix2 p q) = LibScaledDense.update 100000 128 128 _ _ _ _ (((cfg1.win 4).blk t).view.emb (ix2 p q))
  have hemb : ((cfg1.win 4).blk t).view.emb (ix2 p q) = (ix2 (⟨win1_4.index t (0 : Fin 2) * 5000 + p.val, hr⟩ : Fin 100000) q : S100000x128.Idx) := by
    funext a
    apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  rw [hemb]
  refine LibScaledDense.update_row (iblk1 V c 0 t) (V c main_v39) (iblk1 V c 1 t) (V c main_v14) (V c main_arg8) (V c main_arg9) p ⟨_, hr⟩ q (fun kk => ?_) ?_
  · show V c main_v39 (((cfg1.win 0).blk t).view.emb (ix2 p kk)) = V c main_v39 (ix2 _ kk)
    refine congrArg _ (funext fun a => Fin.ext ?_)
    match a with
    | ⟨0, _⟩ => show win1_0.index t (0 : Fin 2) * 5000 + 1 * p.val = win1_4.index t (0 : Fin 2) * 5000 + p.val; omega
    | ⟨1, _⟩ => show win1_0.index t (1 : Fin 2) * 128 + 1 * kk.val = kk.val; omega
  · show V c main_v14 (((cfg1.win 1).blk t).view.emb (ix2 p (0 : Fin 1))) = V c main_v14 (ix2 _ (0 : Fin 1))
    refine congrArg _ (funext fun a => Fin.ext ?_)
    match a with
    | ⟨0, _⟩ => show win1_1.index t (0 : Fin 2) * 5000 + 1 * p.val = win1_4.index t (0 : Fin 2) * 5000 + p.val; omega
    | ⟨1, _⟩ => show win1_1.index t (1 : Fin 2) * 1 + 1 * 0 = 0; omega

/-- An index of the output array is in point `t`'s block iff each coordinate is in the block's range. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v40).slice (win1_4.rect t)).set ↔ _
  rw [View.set_slice_whole, Rect.mem_set_unit]
  exact Iff.rfl

/-- The output array after the launch is the host's layer of the arrays found at entry. -/
theorem arr1 : (dat1 V c).arrAt 4 cfg1.N = GcnSpec.layerN (F := Ideal) (V c main_v39) (V c main_v14) (V c main_arg8) (V c main_arg9) := by
  rw [layerN_eq]
  refine (dat1 V c).arrAt_eq_of_cover 4 _ (fun t _ => flushed1 V c t) fun i => ?_
  have hi0 : (i 0).val < 100000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

end

/-! ## Launch 2 -/

/-- The body's stored value is the update of the block's rows. -/
theorem pay2 (x0 : Vec Ideal S5000x128 .f32) (x1 : Vec Ideal S5000x1 .f32) (x2 : Vec Ideal S128x128 .f32) (x3 : Vec Ideal S128 .f32) :
    k2_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts2 : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0 ∧ win2_3.index t (0 : Fin 1) = 0
    ∧ win2_4.index t (1 : Fin 2) = 0 ∧ win2_4.index t (0 : Fin 2) < 20 :=
  (by decide +kernel : ∀ t : Fin grid2.N, _)

/-- Every block of rows is some point's. -/
theorem idx_onto2 : ∀ q0 : Fin 20, ∃ t : Fin cfg2.N, win2_4.index t = ![q0.val, 0] :=
  (by decide +kernel : ∀ q0 : Fin 20, ∃ t : Fin grid2.N, win2_4.index t = ![q0.val, 0])

section
variable (V : (c : Dev nD) → (b : Ref sig .tc) → Buf (Elt Ideal) ((c : Thread nD τ).loc b)) (c : Dev nD)

/-- What point `t` writes back is the block's rows of the update of all rows. -/
theorem flushed2 (t : Fin cfg2.N) :
    (dat2 V c).flushed 4 t = ((cfg2.win 4).blk t).view.read (Elt Ideal)
      (LibScaledDense.update 100000 128 128 (V c main_v52) (V c main_v14) (V c main_arg10) (V c main_arg11)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S5000x1) hz2, View.ld_unit_zero (S := S128x128) hz2, View.ld_unit_zero (S := S128) hz1]
  rw [pay2]
  obtain ⟨e00, e01, e10, e11, e20, e21, e30, e41, e4lt⟩ := idx_facts2 t
  have hW : (iblk2 V c 2 t : S128x128.Idx → EReal) = V c main_arg10 := by
    funext y
    show V c main_arg10 (((cfg2.win 2).blk t).view.emb y) = V c main_arg10 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hb : (iblk2 V c 3 t : S128.Idx → EReal) = V c main_arg11 := by
    funext y
    show V c main_arg11 (((cfg2.win 3).blk t).view.emb y) = V c main_arg11 y
    refine congrArg _ (funext fun a => Fin.ext ?_)
    match a with
    | ⟨0, _⟩ => show win2_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win2_4.index t (0 : Fin 2) * 5000 + p.val < 100000 := by have := p.isLt; omega
  show LibScaledDense.update 5000 128 128 _ _ _ _ (ix2 p q) = LibScaledDense.update 100000 128 128 _ _ _ _ (((cfg2.win 4).blk t).view.emb (ix2 p q))
  have hemb : ((cfg2.win 4).blk t).view.emb (ix2 p q) = (ix2 (⟨win2_4.index t (0 : Fin 2) * 5000 + p.val, hr⟩ : Fin 100000) q : S100000x128.Idx) := by
    funext a
    apply Fin.ext
    match a with
    | ⟨0, _⟩ => show win2_4.index t (0 : Fin 2) * 5000 + 1 * p.val = win2_4.index t (0 : Fin 2) * 5000 + p.val; omega
    | ⟨1, _⟩ => show win2_4.index t (1 : Fin 2) * 128 + 1 * q.val = q.val; omega
  rw [hemb]
  refine LibScaledDense.update_row (iblk2 V c 0 t) (V c main_v52) (iblk2 V c 1 t) (V c main_v14) (V c main_arg10) (V c main_arg11) p ⟨_, hr⟩ q (fun kk => ?_) ?_
  · show V c main_v52 (((cfg2.win 0).blk t).view.emb (ix2 p kk)) = V c main_v52 (ix2 _ kk)
    refine congrArg _ (funext fun a => Fin.ext ?_)
    match a with
    | ⟨0, _⟩ => show win2_0.index t (0 : Fin 2) * 5000 + 1 * p.val = win2_4.index t (0 : Fin 2) * 5000 + p.val; omega
    | ⟨1, _⟩ => show win2_0.index t (1 : Fin 2) * 128 + 1 * kk.val = kk.val; omega
  · show V c main_v14 (((cfg2.win 1).blk t).view.emb (ix2 p (0 : Fin 1))) = V c main_v14 (ix2 _ (0 : Fin 1))
    refine congrArg _ (funext fun a => Fin.ext ?_)
    match a with
    | ⟨0, _⟩ => show win2_1.index t (0 : Fin 2) * 5000 + 1 * p.val = win2_4.index t (0 : Fin 2) * 5000 + p.val; omega
    | ⟨1, _⟩ => show win2_1.index t (1 : Fin 2) * 1 + 1 * 0 = 0; omega

/-- An index of the output array is in point `t`'s block iff each coordinate is in the block's range. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v53).slice (win2_4.rect t)).set ↔ _
  rw [View.set_slice_whole, Rect.mem_set_unit]
  exact Iff.rfl

/-- The output array after the launch is the host's layer of the arrays found at entry. -/
theorem arr2 : (dat2 V c).arrAt 4 cfg2.N = GcnSpec.layerN (F := Ideal) (V c main_v52) (V c main_v14) (V c main_arg10) (V c main_arg11) := by
  rw [layerN_eq]
  refine (dat2 V c).arrAt_eq_of_cover 4 _ (fun t _ => flushed2 V c t) fun i => ?_
  have hi0 : (i 0).val < 100000 := (i 0).isLt
  have hi1 : (i 1).val < 128 := (i 1).isLt
  obtain ⟨t, ht⟩ := idx_onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

end

/-! ## Launch 3 -/

/-- The body's stored value is the update of the block's rows. -/
theorem pay3 (x0 : Vec Ideal S5000x128 .f32) (x1 : Vec Ideal S5000x1 .f32) (x2 : Vec Ideal S128x128 .f32) (x3 : Vec Ideal S128 .f32) :
    k3_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts3 : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = 0 ∧ win3_2.index t (1 : Fin 2) = 0 ∧ win3_3.index t (0 : Fin 1) = 0
    ∧ win3_4.index t (1 : Fin 2) = 0 ∧ win3_4.index t (0 : Fin 2) < 20 :=
  (by decide +kernel : ∀ t : Fin grid3.N, _)

/-- Every block of rows is some point's. -/
theorem idx_onto3 : ∀ q0 : Fin 20, ∃ t : Fin cfg3.N, win3_4.index t = ![q0.val, 0] :=
  (by decide +kernel : ∀ q0 : Fin 20, ∃ t : Fin grid3.N, win3_4.index t = ![q0.val, 0])

section
variable (V : (c : Dev nD) → (b : Ref sig .tc) → Buf (Elt Ideal) ((c : Thread nD τ).loc b)) (c : Dev nD)

/-- What point `t` writes back is the block's rows of the update of all rows. -/
theorem flushed3 (t : Fin cfg3.N) :
    (dat3 V c).flushed 4 t = ((cfg3.win 4).blk t).view.read (Elt Ideal)
      (LibScaledDense.update 100000 128 128 (V c main_v65) (V c main_v14) (V c main_arg12) (V c main_arg13)) := by
  show (cfg3.win 4).cut (grid3.coords t) ((dat3 V c).after 4 t) = _
  rw [after3_4]
  unfold out3_4
  rw [View.canon_unit_zero hz2]
  simp only [View.ld_unit_zero (S := S5000x128) hz2, View.ld_unit_zero (S := S5000x1) hz2, View.ld_unit_zero (S := S128x128) hz2, View.ld_unit_zero (S := S128) hz1]
  rw [pay3]
  obtain ⟨e00, e01, e10, e11, e20, e21, e30, e41, e4lt⟩ := idx_facts3 t
  have hW : (iblk3 V c 2 t : S128x128.Idx → EReal) = V c main_arg12 := by
    funext y
    show V c main_arg12 (((cfg3.win 2).blk t).view.emb y) = V c main_arg12 y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hb : (iblk3 V c 3 t : S128.Idx → EReal) = V c main_arg13 := by
    funext y
    show V c main_arg13 (((cfg3.win 3).blk t).view.emb y) = V c main_arg13 y
    refine congrArg _ (funext fun a => Fin.ext ?_)
    match a with
    | ⟨0, _⟩ => show win3_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win3_4.index t (0 : Fin 2) * 5000 + p.val < 100000 := by have := p.isLt; omega
  show LibScaledDense.update 5000 128 128 _ _ _ _ (ix2 p q) = LibScaledDense.update 100000 128 128 _ _ _ _ (((cfg3.win 4).blk t).view.emb (ix2 p q))
  have hemb : ((cfg3.win 4).blk t).view.emb (ix2 p q) = (ix2 (⟨win3_4.index t (0 : Fin 2) * 5000 + p.val, hr⟩ : Fin 100000) q : S100000x128.Idx) := by
    funext a
    apply Fin.ext
    match a with
    | ⟨0, _⟩ => show win3_4.index t (0 : Fin 2) * 5000 + 1 * p.val = win3_4.index t (0 : Fin 2) * 5000 + p.val; omega
    | ⟨1, _⟩ => show win3_4.index t (1 : Fin 2) * 128 + 1 * q.val = q.val; omega
  rw [hemb]
  refine LibScaledDense.update_row (iblk3 V c 0 t) (V c main_v65) (iblk3 V c 1 t) (V c main_v14) (V c main_arg12) (V c main_arg13) p ⟨_, hr⟩ q (fun kk => ?_) ?_
  · show V c main_v65 (((cfg3.win 0).blk t).view.emb (ix2 p kk)) = V c main_v65 (ix2 _ kk)
    refine congrArg _ (funext fun a => Fin.ext ?_)
    match a with
    | ⟨0, _⟩ => show win3_0.index t (0 : Fin 2) * 5000 + 1 * p.val = win3_4.index t (0 : Fin 2) * 5000 + p.val; omega
    | ⟨1, _⟩ => show win3_0.index t (1 : Fin 2) * 128 + 1 * kk.val = kk.val; omega
  · show V c main_v14 (((cfg3.win 1).blk t).view.emb (ix2 p (0 : Fin 1))) = V c main_v14 (ix2 _ (0 : Fin 1))
    refine congrArg _ (funext fun a => Fin.ext ?_)
    match a with
    | ⟨0, _⟩ => show win3_1.index t (0 : Fin 2) * 5000 + 1 * p.val = win3_4.index t (0 : Fin 2) * 5000 + p.val; omega
    | ⟨1, _⟩ => show win3_1.index t (1 : Fin 2) * 1 + 1 * 0 = 0; omega

/-- An index of the output array is in point `t`'s block iff each coordinate is in the block's range. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v66).slice (win3_4.rect t)).set ↔ _
  rw [View.set_slice_whole, Rect.mem_set_unit]
  exact Iff.rfl

/-- The output array after the launch is the host's layer of the arrays found at entry. -/
theorem arr3 : (dat3 V c).arrAt 4 cfg3.N = GcnSpec.layerN (F := Ideal) (V c main_v65) (V c main_v14) (V c main_arg12) (V c main_arg13) := by
  rw [layerN_eq]
  refine (dat3 V c).arrAt_eq_of_cover 4 _ (fun t _ => flushed3 V c t) fun i => ?_
  have hi0 : (i 0).val < 100000 := (i 0).isLt
  have hi1 : (i 1).val < 128 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

end

/-! ## Launch 4 -/

/-- The body's stored value is the update of the block's rows (one feature column). -/
theorem pay4 (x0 : Vec Ideal S5000x1 .f32) (x1 : Vec Ideal S5000x1 .f32) (x2 : Vec Ideal S1x128 .f32) (x3 : Vec Ideal S128 .f32) :
    k4_pay1 x0 x1 x2 x3 = LibScaledDense.update 5000 1 128 x0 x1 x2 x3 :=
  LibScaledDense.update_kernel _ x0 x1 (LibScaledDense.scaled_kernel1 x0 x1 _) x2 x3 _ _ _

/-- The block index maps over the grid. -/
theorem idx_facts4 : ∀ t : Fin cfg4.N, win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0 ∧ win4_3.index t (0 : Fin 1) = 0
    ∧ win4_4.index t (1 : Fin 2) = 0 ∧ win4_4.index t (0 : Fin 2) < 20 :=
  (by decide +kernel : ∀ t : Fin grid4.N, _)

/-- Every block of rows is some point's. -/
theorem idx_onto4 : ∀ q0 : Fin 20, ∃ t : Fin cfg4.N, win4_4.index t = ![q0.val, 0] :=
  (by decide +kernel : ∀ q0 : Fin 20, ∃ t : Fin grid4.N, win4_4.index t = ![q0.val, 0])

section
variable (V : (c : Dev nD) → (b : Ref sig .tc) → Buf (Elt Ideal) ((c : Thread nD τ).loc b)) (c : Dev nD)

/-- What point `t` writes back is the block's rows of the update of all rows. -/
theorem flushed4 (t : Fin cfg4.N) :
    (dat4 V c).flushed 4 t = ((cfg4.win 4).blk t).view.read (Elt Ideal)
      (LibScaledDense.update 100000 1 128 (V c main_v105) (V c main_v93) (V c main_arg6) (V c main_arg7)) := by
  show (cfg4.win 4).cut (grid4.coords t) ((dat4 V c).after 4 t) = _
  rw [after4_4]
  unfold out4_4
  rw [View.canon_unit_zero hz2]
  simp only [View.ld_unit_zero (S := S5000x1) hz2, View.ld_unit_zero (S := S1x128) hz2, View.ld_unit_zero (S := S128) hz1]
  rw [pay4]
  obtain ⟨e00, e01, e10, e11, e20, e21, e30, e41, e4lt⟩ := idx_facts4 t
  have hW : (iblk4 V c 2 t : S1x128.Idx → EReal) = V c main_arg6 := by
    funext y
    show V c main_arg6 (((cfg4.win 2).blk t).view.emb y) = V c main_arg6 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  have hb : (iblk4 V c 3 t : S128.Idx → EReal) = V c main_arg7 := by
    funext y
    show V c main_arg7 (((cfg4.win 3).blk t).view.emb y) = V c main_arg7 y
    refine congrArg _ (funext fun a => Fin.ext ?_)
    match a with
    | ⟨0, _⟩ => show win4_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win4_4.index t (0 : Fin 2) * 5000 + p.val < 100000 := by have := p.isLt; omega
  show LibScaledDense.update 5000 1 128 _ _ _ _ (ix2 p q) = LibScaledDense.update 100000 1 128 _ _ _ _ (((cfg4.win 4).blk t).view.emb (ix2 p q))
  have hemb : ((cfg4.win 4).blk t).view.emb (ix2 p q) = (ix2 (⟨win4_4.index t (0 : Fin 2) * 5000 + p.val, hr⟩ : Fin 100000) q : S100000x128.Idx) := by
    funext a
    apply Fin.ext
    match a with
    | ⟨0, _⟩ => show win4_4.index t (0 : Fin 2) * 5000 + 1 * p.val = win4_4.index t (0 : Fin 2) * 5000 + p.val; omega
    | ⟨1, _⟩ => show win4_4.index t (1 : Fin 2) * 128 + 1 * q.val = q.val; omega
  rw [hemb]
  refine LibScaledDense.update_row (iblk4 V c 0 t) (V c main_v105) (iblk4 V c 1 t) (V c main_v93) (V c main_arg6) (V c main_arg7) p ⟨_, hr⟩ q (fun kk => ?_) ?_
  · show V c main_v105 (((cfg4.win 0).blk t).view.emb (ix2 p kk)) = V c main_v105 (ix2 _ kk)
    refine congrArg _ (funext fun a => Fin.ext ?_)
    match a with
    | ⟨0, _⟩ => show win4_0.index t (0 : Fin 2) * 5000 + 1 * p.val = win4_4.index t (0 : Fin 2) * 5000 + p.val; omega
    | ⟨1, _⟩ => show win4_0.index t (1 : Fin 2) * 1 + 1 * kk.val = kk.val; omega
  · show V c main_v93 (((cfg4.win 1).blk t).view.emb (ix2 p (0 : Fin 1))) = V c main_v93 (ix2 _ (0 : Fin 1))
    refine congrArg _ (funext fun a => Fin.ext ?_)
    match a with
    | ⟨0, _⟩ => show win4_1.index t (0 : Fin 2) * 5000 + 1 * p.val = win4_4.index t (0 : Fin 2) * 5000 + p.val; omega
    | ⟨1, _⟩ => show win4_1.index t (1 : Fin 2) * 1 + 1 * 0 = 0; omega

/-- An index of the output array is in point `t`'s block iff each coordinate is in the block's range. -/
theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v106).slice (win4_4.rect t)).set ↔ _
  rw [View.set_slice_whole, Rect.mem_set_unit]
  exact Iff.rfl

/-- The output array after the launch is the host's first layer of the arrays found at entry. -/
theorem arr4 : (dat4 V c).arrAt 4 cfg4.N = GcnSpec.layer1 (F := Ideal) (V c main_v105) (V c main_v93) (V c main_arg6) (V c main_arg7) := by
  rw [layer1_eq]
  refine (dat4 V c).arrAt_eq_of_cover 4 _ (fun t _ => flushed4 V c t) fun i => ?_
  have hi0 : (i 0).val < 100000 := (i 0).isLt
  have hi1 : (i 1).val < 128 := (i 1).isLt
  obtain ⟨t, ht⟩ := idx_onto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

end

/-! ## Launch 5 -/

/-- The body's stored value is the update of the block's rows. -/
theorem pay5 (x0 : Vec Ideal S5000x128 .f32) (x1 : Vec Ideal S5000x1 .f32) (x2 : Vec Ideal S128x128 .f32) (x3 : Vec Ideal S128 .f32) :
    k5_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts5 : ∀ t : Fin cfg5.N, win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = 0 ∧ win5_2.index t (1 : Fin 2) = 0 ∧ win5_3.index t (0 : Fin 1) = 0
    ∧ win5_4.index t (1 : Fin 2) = 0 ∧ win5_4.index t (0 : Fin 2) < 20 :=
  (by decide +kernel : ∀ t : Fin grid5.N, _)

/-- Every block of rows is some point's. -/
theorem idx_onto5 : ∀ q0 : Fin 20, ∃ t : Fin cfg5.N, win5_4.index t = ![q0.val, 0] :=
  (by decide +kernel : ∀ q0 : Fin 20, ∃ t : Fin grid5.N, win5_4.index t = ![q0.val, 0])

section
variable (V : (c : Dev nD) → (b : Ref sig .tc) → Buf (Elt Ideal) ((c : Thread nD τ).loc b)) (c : Dev nD)

/-- What point `t` writes back is the block's rows of the update of all rows. -/
theorem flushed5 (t : Fin cfg5.N) :
    (dat5 V c).flushed 4 t = ((cfg5.win 4).blk t).view.read (Elt Ideal)
      (LibScaledDense.update 100000 128 128 (V c main_v118) (V c main_v93) (V c main_arg8) (V c main_arg9)) := by
  show (cfg5.win 4).cut (grid5.coords t) ((dat5 V c).after 4 t) = _
  rw [after5_4]
  unfold out5_4
  rw [View.canon_unit_zero hz2]
  simp only [View.ld_unit_zero (S := S5000x128) hz2, View.ld_unit_zero (S := S5000x1) hz2, View.ld_unit_zero (S := S128x128) hz2, View.ld_unit_zero (S := S128) hz1]
  rw [pay5]
  obtain ⟨e00, e01, e10, e11, e20, e21, e30, e41, e4lt⟩ := idx_facts5 t
  have hW : (iblk5 V c 2 t : S128x128.Idx → EReal) = V c main_arg8 := by
    funext y
    show V c main_arg8 (((cfg5.win 2).blk t).view.emb y) = V c main_arg8 y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  have hb : (iblk5 V c 3 t : S128.Idx → EReal) = V c main_arg9 := by
    funext y
    show V c main_arg9 (((cfg5.win 3).blk t).view.emb y) = V c main_arg9 y
    refine congrArg _ (funext fun a => Fin.ext ?_)
    match a with
    | ⟨0, _⟩ => show win5_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win5_4.index t (0 : Fin 2) * 5000 + p.val < 100000 := by have := p.isLt; omega
  show LibScaledDense.update 5000 128 128 _ _ _ _ (ix2 p q) = LibScaledDense.update 100000 128 128 _ _ _ _ (((cfg5.win 4).blk t).view.emb (ix2 p q))
  have hemb : ((cfg5.win 4).blk t).view.emb (ix2 p q) = (ix2 (⟨win5_4.index t (0 : Fin 2) * 5000 + p.val, hr⟩ : Fin 100000) q : S100000x128.Idx) := by
    funext a
    apply Fin.ext
    match a with
    | ⟨0, _⟩ => show win5_4.index t (0 : Fin 2) * 5000 + 1 * p.val = win5_4.index t (0 : Fin 2) * 5000 + p.val; omega
    | ⟨1, _⟩ => show win5_4.index t (1 : Fin 2) * 128 + 1 * q.val = q.val; omega
  rw [hemb]
  refine LibScaledDense.update_row (iblk5 V c 0 t) (V c main_v118) (iblk5 V c 1 t) (V c main_v93) (V c main_arg8) (V c main_arg9) p ⟨_, hr⟩ q (fun kk => ?_) ?_
  · show V c main_v118 (((cfg5.win 0).blk t).view.emb (ix2 p kk)) = V c main_v118 (ix2 _ kk)
    refine congrArg _ (funext fun a => Fin.ext ?_)
    match a with
    | ⟨0, _⟩ => show win5_0.index t (0 : Fin 2) * 5000 + 1 * p.val = win5_4.index t (0 : Fin 2) * 5000 + p.val; omega
    | ⟨1, _⟩ => show win5_0.index t (1 : Fin 2) * 128 + 1 * kk.val = kk.val; omega
  · show V c main_v93 (((cfg5.win 1).blk t).view.emb (ix2 p (0 : Fin 1))) = V c main_v93 (ix2 _ (0 : Fin 1))
    refine congrArg _ (funext fun a => Fin.ext ?_)
    match a with
    | ⟨0, _⟩ => show win5_1.index t (0 : Fin 2) * 5000 + 1 * p.val = win5_4.index t (0 : Fin 2) * 5000 + p.val; omega
    | ⟨1, _⟩ => show win5_1.index t (1 : Fin 2) * 1 + 1 * 0 = 0; omega

/-- An index of the output array is in point `t`'s block iff each coordinate is in the block's range. -/
theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v119).slice (win5_4.rect t)).set ↔ _
  rw [View.set_slice_whole, Rect.mem_set_unit]
  exact Iff.rfl

/-- The output array after the launch is the host's layer of the arrays found at entry. -/
theorem arr5 : (dat5 V c).arrAt 4 cfg5.N = GcnSpec.layerN (F := Ideal) (V c main_v118) (V c main_v93) (V c main_arg8) (V c main_arg9) := by
  rw [layerN_eq]
  refine (dat5 V c).arrAt_eq_of_cover 4 _ (fun t _ => flushed5 V c t) fun i => ?_
  have hi0 : (i 0).val < 100000 := (i 0).isLt
  have hi1 : (i 1).val < 128 := (i 1).isLt
  obtain ⟨t, ht⟩ := idx_onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

end

/-! ## Launch 6 -/

/-- The body's stored value is the update of the block's rows. -/
theorem pay6 (x0 : Vec Ideal S5000x128 .f32) (x1 : Vec Ideal S5000x1 .f32) (x2 : Vec Ideal S128x128 .f32) (x3 : Vec Ideal S128 .f32) :
    k6_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts6 : ∀ t : Fin cfg6.N, win6_0.index t (0 : Fin 2) = win6_4.index t (0 : Fin 2) ∧ win6_0.index t (1 : Fin 2) = 0
    ∧ win6_1.index t (0 : Fin 2) = win6_4.index t (0 : Fin 2) ∧ win6_1.index t (1 : Fin 2) = 0
    ∧ win6_2.index t (0 : Fin 2) = 0 ∧ win6_2.index t (1 : Fin 2) = 0 ∧ win6_3.index t (0 : Fin 1) = 0
    ∧ win6_4.index t (1 : Fin 2) = 0 ∧ win6_4.index t (0 : Fin 2) < 20 :=
  (by decide +kernel : ∀ t : Fin grid6.N, _)

/-- Every block of rows is some point's. -/
theorem idx_onto6 : ∀ q0 : Fin 20, ∃ t : Fin cfg6.N, win6_4.index t = ![q0.val, 0] :=
  (by decide +kernel : ∀ q0 : Fin 20, ∃ t : Fin grid6.N, win6_4.index t = ![q0.val, 0])

section
variable (V : (c : Dev nD) → (b : Ref sig .tc) → Buf (Elt Ideal) ((c : Thread nD τ).loc b)) (c : Dev nD)

/-- What point `t` writes back is the block's rows of the update of all rows. -/
theorem flushed6 (t : Fin cfg6.N) :
    (dat6 V c).flushed 4 t = ((cfg6.win 4).blk t).view.read (Elt Ideal)
      (LibScaledDense.update 100000 128 128 (V c main_v131) (V c main_v93) (V c main_arg10) (V c main_arg11)) := by
  show (cfg6.win 4).cut (grid6.coords t) ((dat6 V c).after 4 t) = _
  rw [after6_4]
  unfold out6_4
  rw [View.canon_unit_zero hz2]
  simp only [View.ld_unit_zero (S := S5000x128) hz2, View.ld_unit_zero (S := S5000x1) hz2, View.ld_unit_zero (S := S128x128) hz2, View.ld_unit_zero (S := S128) hz1]
  rw [pay6]
  obtain ⟨e00, e01, e10, e11, e20, e21, e30, e41, e4lt⟩ := idx_facts6 t
  have hW : (iblk6 V c 2 t : S128x128.Idx → EReal) = V c main_arg10 := by
    funext y
    show V c main_arg10 (((cfg6.win 2).blk t).view.emb y) = V c main_arg10 y
    refine congrArg _ (funext fun a => Fin.ext ?_)
    match a with
    | ⟨0, _⟩ => show win6_2.index t (0 : Fin 2) * 128 + 1 * (y 0).val = (y 0).val; omega
    | ⟨1, _⟩ => show win6_2.index t (1 : Fin 2) * 128 + 1 * (y 1).val = (y 1).val; omega
  have hb : (iblk6 V c 3 t : S128.Idx → EReal) = V c main_arg11 := by
    funext y
    show V c main_arg11 (((cfg6.win 3).blk t).view.emb y) = V c main_arg11 y
    refine congrArg _ (funext fun a => Fin.ext ?_)
    match a with
    | ⟨0, _⟩ => show win6_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win6_4.index t (0 : Fin 2) * 5000 + p.val < 100000 := by have := p.isLt; omega
  show LibScaledDense.update 5000 128 128 _ _ _ _ (ix2 p q) = LibScaledDense.update 100000 128 128 _ _ _ _ (((cfg6.win 4).blk t).view.emb (ix2 p q))
  have hemb : ((cfg6.win 4).blk t).view.emb (ix2 p q) = (ix2 (⟨win6_4.index t (0 : Fin 2) * 5000 + p.val, hr⟩ : Fin 100000) q : S100000x128.Idx) := by
    funext a
    apply Fin.ext
    match a with
    | ⟨0, _⟩ => show win6_4.index t (0 : Fin 2) * 5000 + 1 * p.val = win6_4.index t (0 : Fin 2) * 5000 + p.val; omega
    | ⟨1, _⟩ => show win6_4.index t (1 : Fin 2) * 128 + 1 * q.val = q.val; omega
  rw [hemb]
  refine LibScaledDense.update_row (iblk6 V c 0 t) (V c main_v131) (iblk6 V c 1 t) (V c main_v93) (V c main_arg10) (V c main_arg11) p ⟨_, hr⟩ q (fun kk => ?_) ?_
  · show V c main_v131 (((cfg6.win 0).blk t).view.emb (ix2 p kk)) = V c main_v131 (ix2 _ kk)
    refine congrArg _ (funext fun a => Fin.ext ?_)
    match a with
    | ⟨0, _⟩ => show win6_0.index t (0 : Fin 2) * 5000 + 1 * p.val = win6_4.index t (0 : Fin 2) * 5000 + p.val; omega
    | ⟨1, _⟩ => show win6_0.index t (1 : Fin 2) * 128 + 1 * kk.val = kk.val; omega
  · show V c main_v93 (((cfg6.win 1).blk t).view.emb (ix2 p (0 : Fin 1))) = V c main_v93 (ix2 _ (0 : Fin 1))
    refine congrArg _ (funext fun a => Fin.ext ?_)
    match a with
    | ⟨0, _⟩ => show win6_1.index t (0 : Fin 2) * 5000 + 1 * p.val = win6_4.index t (0 : Fin 2) * 5000 + p.val; omega
    | ⟨1, _⟩ => show win6_1.index t (1 : Fin 2) * 1 + 1 * 0 = 0; omega

/-- An index of the output array is in point `t`'s block iff each coordinate is in the block's range. -/
theorem mem_blk6 (t : Fin cfg6.N) (i : S100000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v132).slice (win6_4.rect t)).set ↔ _
  rw [View.set_slice_whole, Rect.mem_set_unit]
  exact Iff.rfl

/-- The output array after the launch is the host's layer of the arrays found at entry. -/
theorem arr6 : (dat6 V c).arrAt 4 cfg6.N = GcnSpec.layerN (F := Ideal) (V c main_v131) (V c main_v93) (V c main_arg10) (V c main_arg11) := by
  rw [layerN_eq]
  refine (dat6 V c).arrAt_eq_of_cover 4 _ (fun t _ => flushed6 V c t) fun i => ?_
  have hi0 : (i 0).val < 100000 := (i 0).isLt
  have hi1 : (i 1).val < 128 := (i 1).isLt
  obtain ⟨t, ht⟩ := idx_onto6 ⟨(i 0).val / 5000, by omega⟩
  have q0 : win6_4.index t (0 : Fin 2) = (i 0).val / 5000 := congrFun ht 0
  have q1 : win6_4.index t (1 : Fin 2) = 0 := congrFun ht 1
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

end

/-! ## Launch 7 -/

/-- The body's stored value is the update of the block's rows. -/
theorem pay7 (x0 : Vec Ideal S5000x128 .f32) (x1 : Vec Ideal S5000x1 .f32) (x2 : Vec Ideal S128x128 .f32) (x3 : Vec Ideal S128 .f32) :
    k7_pay1 x0 x1 x2 x3 = LibScaledDense.update 5000 128 128 x0 x1 x2 x3 :=
  LibScaledDense.update_kernel _ x0 x1 (LibScaledDense.scaled_kernelN x0 x1 _ _ _) x2 x3 _ _ _

/-- The block index maps over the grid: the messages, the factor and the output move together along the rows; the
    weights and the bias stay. -/
theorem idx_facts7 : ∀ t : Fin cfg7.N, win7_0.index t (0 : Fin 2) = win7_4.index t (0 : Fin 2) ∧ win7_0.index t (1 : Fin 2) = 0
    ∧ win7_1.index t (0 : Fin 2) = win7_4.index t (0 : Fin 2) ∧ win7_1.index t (1 : Fin 2) = 0
    ∧ win7_2.index t (0 : Fin 2) = 0 ∧ win7_2.index t (1 : Fin 2) = 0 ∧ win7_3.index t (0 : Fin 1) = 0
    ∧ win7_4.index t (1 : Fin 2) = 0 ∧ win7_4.index t (0 : Fin 2) < 20 :=
  (by decide +kernel : ∀ t : Fin grid7.N, _)

/-- Every block of rows is some point's. -/
theorem idx_onto7 : ∀ q0 : Fin 20, ∃ t : Fin cfg7.N, win7_4.index t = ![q0.val, 0] :=
  (by decide +kernel : ∀ q0 : Fin 20, ∃ t : Fin grid7.N, win7_4.index t = ![q0.val, 0])

section
variable (V : (c : Dev nD) → (b : Ref sig .tc) → Buf (Elt Ideal) ((c : Thread nD τ).loc b)) (c : Dev nD)

/-- What point `t` writes back is the block's rows of the update of all rows. -/
theorem flushed7 (t : Fin cfg7.N) :
    (dat7 V c).flushed 4 t = ((cfg7.win 4).blk t).view.read (Elt Ideal)
      (LibScaledDense.update 100000 128 128 (V c main_v144) (V c main_v93) (V c main_arg12) (V c main_arg13)) := by
  show (cfg7.win 4).cut (grid7.coords t) ((dat7 V c).after 4 t) = _
  rw [after7_4]
  unfold out7_4
  rw [View.canon_unit_zero hz2]
  simp only [View.ld_unit_zero (S := S5000x128) hz2, View.ld_unit_zero (S := S5000x1) hz2, View.ld_unit_zero (S := S128x128) hz2, View.ld_unit_zero (S := S128) hz1]
  rw [pay7]
  obtain ⟨e00, e01, e10, e11, e20, e21, e30, e41, e4lt⟩ := idx_facts7 t
  have hW : (iblk7 V c 2 t : S128x128.Idx → EReal) = V c main_arg12 := by
    funext y
    show V c main_arg12 (((cfg7.win 2).blk t).view.emb y) = V c main_arg12 y
    refine congrArg _ (funext fun a => Fin.ext ?_)
    match a with
    | ⟨0, _⟩ => show win7_2.index t (0 : Fin 2) * 128 + 1 * (y 0).val = (y 0).val; omega
    | ⟨1, _⟩ => show win7_2.index t (1 : Fin 2) * 128 + 1 * (y 1).val = (y 1).val; omega
  have hb : (iblk7 V c 3 t : S128.Idx → EReal) = V c main_arg13 := by
    funext y
    show V c main_arg13 (((cfg7.win 3).blk t).view.emb y) = V c main_arg13 y
    refine congrArg _ (funext fun a => Fin.ext ?_)
    match a with
    | ⟨0, _⟩ => show win7_3.index t (0 : Fin 1) * 128 + 1 * (y 0).val = (y 0).val; omega
  rw [hW, hb]
  funext j
  obtain ⟨p, q, rfl⟩ : ∃ (p : Fin 5000) (q : Fin 128), j = ix2 p q := ⟨j 0, j 1, eq_ix2 j⟩
  have hr : win7_4.index t (0 : Fin 2) * 5000 + p.val < 100000 := by have := p.isLt; omega
  show LibScaledDense.update 5000 128 128 _ _ _ _ (ix2 p q) = LibScaledDense.update 100000 128 128 _ _ _ _ (((cfg7.win 4).blk t).view.emb (ix2 p q))
  have hemb : ((cfg7.win 4).blk t).view.emb (ix2 p q) = (ix2 (⟨win7_4.index t (0 : Fin 2) * 5000 + p.val, hr⟩ : Fin 100000) q : S100000x128.Idx) := by
    funext a
    apply Fin.ext
    match a with
    | ⟨0, _⟩ => show win7_4.index t (0 : Fin 2) * 5000 + 1 * p.val = win7_4.index t (0 : Fin 2) * 5000 + p.val; omega
    | ⟨1, _⟩ => show win7_4.index t (1 : Fin 2) * 128 + 1 * q.val = q.val; omega
  rw [hemb]
  refine LibScaledDense.update_row (iblk7 V c 0 t) (V c main_v144) (iblk7 V c 1 t) (V c main_v93) (V c main_arg12) (V c main_arg13) p ⟨_, hr⟩ q (fun kk => ?_) ?_
  · show V c main_v144 (((cfg7.win 0).blk t).view.emb (ix2 p kk)) = V c main_v144 (ix2 _ kk)
    refine congrArg _ (funext fun a => Fin.ext ?_)
    match a with
    | ⟨0, _⟩ => show win7_0.index t (0 : Fin 2) * 5000 + 1 * p.val = win7_4.index t (0 : Fin 2) * 5000 + p.val; omega
    | ⟨1, _⟩ => show win7_0.index t (1 : Fin 2) * 128 + 1 * kk.val = kk.val; omega
  · show V c main_v93 (((cfg7.win 1).blk t).view.emb (ix2 p (0 : Fin 1))) = V c main_v93 (ix2 _ (0 : Fin 1))
    refine congrArg _ (funext fun a => Fin.ext ?_)
    match a with
    | ⟨0, _⟩ => show win7_1.index t (0 : Fin 2) * 5000 + 1 * p.val = win7_4.index t (0 : Fin 2) * 5000 + p.val; omega
    | ⟨1, _⟩ => show win7_1.index t (1 : Fin 2) * 1 + 1 * 0 = 0; omega

/-- An index of the output array is in point `t`'s block iff each coordinate is in the block's range. -/
theorem mem_blk7 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v145).slice (win7_4.rect t)).set ↔ _
  rw [View.set_slice_whole, Rect.mem_set_unit]
  exact Iff.rfl

/-- The output array after the launch is the host's layer of the arrays found at entry. -/
theorem arr7 : (dat7 V c).arrAt 4 cfg7.N = GcnSpec.layerN (F := Ideal) (V c main_v144) (V c main_v93) (V c main_arg12) (V c main_arg13) := by
  rw [layerN_eq]
  refine (dat7 V c).arrAt_eq_of_cover 4 _ (fun t _ => flushed7 V c t) fun i => ?_
  have hi0 : (i 0).val < 100000 := (i 0).isLt
  have hi1 : (i 1).val < 128 := (i 1).isLt
  obtain ⟨t, ht⟩ := idx_onto7 ⟨(i 0).val / 5000, by omega⟩
  have q0 : win7_4.index t (0 : Fin 2) = (i 0).val / 5000 := congrFun ht 0
  have q1 : win7_4.index t (1 : Fin 2) = 0 := congrFun ht 1
  refine ⟨t, flush7_4 t, ?_⟩
  rw [mem_blk7]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

end

/-! ## Launch 8: the classifier -/

/-- The body's stored value is the classifier of the two readouts. -/
theorem pay8 (x0 x1 : Vec Ideal S128x128 .f32) (x2 : Vec Ideal S128x10 .f32) (x3 : Vec Ideal S10 .f32) :
    k8_pay1 x0 x1 x2 x3 = LibScaledDense.classify 128 128 10 x0 x1 x2 x3 :=
  LibScaledDense.classify_kernel x0 x1 x2 x3 _ _ _ _

/-- The one point's blocks sit at the origin. -/
theorem idx_facts8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 ∧ win8_3.index t (0 : Fin 1) = 0
    ∧ win8_4.index t (0 : Fin 2) = 0 ∧ win8_4.index t (1 : Fin 2) = 0 :=
  (by decide +kernel : ∀ t : Fin grid8.N, _)

section
variable (V : (c : Dev nD) → (b : Ref sig .tc) → Buf (Elt Ideal) ((c : Thread nD τ).loc b)) (c : Dev nD)

/-- What the one point writes back is the whole classifier result. -/
theorem flushed8 (t : Fin cfg8.N) :
    (dat8 V c).flushed 4 t = ((cfg8.win 4).blk t).view.read (Elt Ideal)
      (LibScaledDense.classify 128 128 10 (V c main_v78) (V c main_v157) (V c main_arg14) (V c main_arg15)) := by
  show (cfg8.win 4).cut (grid8.coords t) ((dat8 V c).after 4 t) = _
  rw [after8_4]
  unfold out8_4
  rw [View.canon_unit_zero hz2]
  simp only [View.ld_unit_zero (S := S128x128) hz2, View.ld_unit_zero (S := S128x10) hz2, View.ld_unit_zero (S := S10) hz1]
  rw [pay8]
  obtain ⟨e00, e01, e10, e11, e20, e21, e30, e40, e41⟩ := idx_facts8 t
  have h0 : (iblk8 V c 0 t : S128x128.Idx → EReal) = V c main_v78 := by
    funext y
    show V c main_v78 (((cfg8.win 0).blk t).view.emb y) = V c main_v78 y
    refine congrArg _ (funext fun a => Fin.ext ?_)
    match a with
    | ⟨0, _⟩ => show win8_0.index t (0 : Fin 2) * 128 + 1 * (y 0).val = (y 0).val; omega
    | ⟨1, _⟩ => show win8_0.index t (1 : Fin 2) * 128 + 1 * (y 1).val = (y 1).val; omega
  have h1 : (iblk8 V c 1 t : S128x128.Idx → EReal) = V c main_v157 := by
    funext y
    show V c main_v157 (((cfg8.win 1).blk t).view.emb y) = V c main_v157 y
    refine congrArg _ (funext fun a => Fin.ext ?_)
    match a with
    | ⟨0, _⟩ => show win8_1.index t (0 : Fin 2) * 128 + 1 * (y 0).val = (y 0).val; omega
    | ⟨1, _⟩ => show win8_1.index t (1 : Fin 2) * 128 + 1 * (y 1).val = (y 1).val; omega
  have h2 : (iblk8 V c 2 t : S128x10.Idx → EReal) = V c main_arg14 := by
    funext y
    show V c main_arg14 (((cfg8.win 2).blk t).view.emb y) = V c main_arg14 y
    refine congrArg _ (funext fun a => Fin.ext ?_)
    match a with
    | ⟨0, _⟩ => show win8_2.index t (0 : Fin 2) * 128 + 1 * (y 0).val = (y 0).val; omega
    | ⟨1, _⟩ => show win8_2.index t (1 : Fin 2) * 10 + 1 * (y 1).val = (y 1).val; omega
  have h3 : (iblk8 V c 3 t : S10.Idx → EReal) = V c main_arg15 := by
    funext y
    show V c main_arg15 (((cfg8.win 3).blk t).view.emb y) = V c main_arg15 y
    refine congrArg _ (funext fun a => Fin.ext ?_)
    match a with
    | ⟨0, _⟩ => show win8_3.index t (0 : Fin 1) * 10 + 1 * (y 0).val = (y 0).val; omega
  rw [h0, h1, h2, h3]
  funext j
  show LibScaledDense.classify 128 128 10 _ _ _ _ j = LibScaledDense.classify 128 128 10 _ _ _ _ (((cfg8.win 4).blk t).view.emb j)
  refine congrArg _ (funext fun a => Fin.ext ?_)
  match a with
  | ⟨0, _⟩ => show (j 0).val = win8_4.index t (0 : Fin 2) * 128 + 1 * (j 0).val; omega
  | ⟨1, _⟩ => show (j 1).val = win8_4.index t (1 : Fin 2) * 10 + 1 * (j 1).val; omega

/-- An index of the output array is in the point's block iff each coordinate is in the block's range. -/
theorem mem_blk8 (t : Fin cfg8.N) (i : S128x10.Idx) :
    i ∈ ((cfg8.win 4).blk t).view.set ↔ ∀ a : Fin 2, win8_4.index t a * S128x10.size a ≤ (i a).val ∧ (i a).val < win8_4.index t a * S128x10.size a + S128x10.size a := by
  show i ∈ ((View.whole main_v158).slice (win8_4.rect t)).set ↔ _
  rw [View.set_slice_whole, Rect.mem_set_unit]
  exact Iff.rfl

/-- The logits array after the launch is the host's classifier of the arrays found at entry. -/
theorem arr8 : (dat8 V c).arrAt 4 cfg8.N = GcnSpec.logits (F := Ideal) (V c main_v78) (V c main_v157) (V c main_arg14) (V c main_arg15) := by
  rw [logits_eq]
  refine (dat8 V c).arrAt_eq_of_cover 4 _ (fun t _ => flushed8 V c t) fun i => ?_
  have hi0 : (i 0).val < 128 := (i 0).isLt
  have hi1 : (i 1).val < 10 := (i 1).isLt
  obtain ⟨e00, e01, e10, e11, e20, e21, e30, e40, e41⟩ := idx_facts8 t8_0
  refine ⟨t8_0, flush8_4 t8_0, ?_⟩
  rw [mem_blk8]
  intro a
  match a with
  | ⟨0, _⟩ => show win8_4.index t8_0 (0 : Fin 2) * 128 ≤ (i 0).val ∧ (i 0).val < win8_4.index t8_0 (0 : Fin 2) * 128 + 128; omega
  | ⟨1, _⟩ => show win8_4.index t8_0 (1 : Fin 2) * 10 ≤ (i 1).val ∧ (i 1).val < win8_4.index t8_0 (1 : Fin 2) * 10 + 10; omega

end

end Cert.KernelIdeal.Regions

end
-- ==== Proof.Values.lean ====
/-
  The contents of the kernel program's buffers, boundary by boundary, as the specification's functions of the arguments.

  Following a branch through the program: the first stretch of host operations leaves the two normalising columns
  and the first aggregation; each launch leaves the next layer's features (its output array is the host's layer of
  what it found at entry, and what it found at entry is known from the boundary before); each stretch between two
  launches leaves the next aggregation; the stretch after the fourth launch leaves the readout.  The arguments and
  the columns are carried unchanged from where they are produced to where they are read.  The second branch is the
  first with the other edge list; the classifier launch reads the two readouts.
-/
import proofs.«134133_j74509092651322_1_alg».proof.Proof.Keep
import proofs.«134133_j74509092651322_1_alg».proof.Proof.Stages
import proofs.«134133_j74509092651322_1_alg».proof.Proof.Regions

set_option maxRecDepth 16384

noncomputable section

namespace Cert.KernelIdeal.Values

open Cert.KernelIdeal Cert.KernelIdeal.Gen Cert.KernelIdeal.Keep Cert.KernelIdeal.Stages Cert.KernelIdeal.Regions
open Idealize.ShloMosaic Idealize.ShloMosaic.TcCoe Idealize.ShloMosaic.StableHlo Idealize.SL.Sem

/-- A function of four arguments respects equality in each. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

variable (m : (ℓ : Loc nD τ sig) → Buf (Elt Ideal) ℓ) (ρ : Dev nD → PrngReg) (c : Dev nD)

/-! ## Branch 1 -/

theorem cs1 : W1 m ρ c (Proc.devRef .tc main_v10) = (GcnSpec.norm (F := Ideal) (GcnSpec.deg (W0 m ρ c (Proc.devRef .tc main_arg0)))) :=
  (s0_cs (W0 m ρ c)).trans (congrArg (fun x => GcnSpec.norm (F := Ideal) (GcnSpec.deg x)) rfl)

theorem cd1 : W1 m ρ c (Proc.devRef .tc main_v14) = (GcnSpec.norm (F := Ideal) (GcnSpec.deg (W0 m ρ c (Proc.devRef .tc main_arg1)))) :=
  (s0_cd (W0 m ρ c)).trans (congrArg (fun x => GcnSpec.norm (F := Ideal) (GcnSpec.deg x)) rfl)

theorem g0_1 : W1 m ρ c (Proc.devRef .tc main_v26) = GcnSpec.agg1 (F := Ideal) (W0 m ρ c (Proc.devRef .tc main_arg0)) (W0 m ρ c (Proc.devRef .tc main_arg1)) (mulf (GcnSpec.col (GcnSpec.deg (W0 m ρ c (Proc.devRef .tc main_arg1)))) (GcnSpec.norm (F := Ideal) (GcnSpec.deg (W0 m ρ c (Proc.devRef .tc main_arg0))))) :=
  (s0_agg (W0 m ρ c)).trans (congrArg₂ (fun x y => GcnSpec.agg1 (F := Ideal) x y (mulf (GcnSpec.col (GcnSpec.deg y)) (GcnSpec.norm (GcnSpec.deg x)))) rfl rfl)

theorem h1_1 : W2 m ρ c (Proc.devRef .tc main_v27) = (GcnSpec.feat1 (F := Ideal) (W0 m ρ c (Proc.devRef .tc main_arg0)) (W0 m ρ c (Proc.devRef .tc main_arg1)) (W0 m ρ c (Proc.devRef .tc main_arg6)) (W0 m ρ c (Proc.devRef .tc main_arg7))) :=
  (W2_arr m ρ c 4).trans ((arr0 (V1 m ρ) c).trans (congr4 (GcnSpec.layer1 (F := Ideal)) (g0_1 m ρ c)
    (rfl.trans (cd1 m ρ c)) ((keepH0 (W0 m ρ c) (by decide) : W1 m ρ c (Proc.devRef .tc main_arg6) = W0 m ρ c (Proc.devRef .tc main_arg6)) : W1 m ρ c (Proc.devRef .tc main_arg6) = W0 m ρ c (Proc.devRef .tc main_arg6)) ((keepH0 (W0 m ρ c) (by decide) : W1 m ρ c (Proc.devRef .tc main_arg7) = W0 m ρ c (Proc.devRef .tc main_arg7)) : W1 m ρ c (Proc.devRef .tc main_arg7) = W0 m ρ c (Proc.devRef .tc main_arg7))))

theorem g1_1 : W3 m ρ c (Proc.devRef .tc main_v39) = GcnSpec.aggN (F := Ideal) (W0 m ρ c (Proc.devRef .tc main_arg0)) (W0 m ρ c (Proc.devRef .tc main_arg1)) (GcnSpec.feat1 (F := Ideal) (W0 m ρ c (Proc.devRef .tc main_arg0)) (W0 m ρ c (Proc.devRef .tc main_arg1)) (W0 m ρ c (Proc.devRef .tc main_arg6)) (W0 m ρ c (Proc.devRef .tc main_arg7))) (GcnSpec.norm (F := Ideal) (GcnSpec.deg (W0 m ρ c (Proc.devRef .tc main_arg0)))) :=
  (s1_agg (W2 m ρ c)).trans (congr4 (GcnSpec.aggN (F := Ideal)) (((keepR0 m ρ c main_arg0 (by decide)).trans (keepH0 (W0 m ρ c) (by decide) : W1 m ρ c (Proc.devRef .tc main_arg0) = W0 m ρ c (Proc.devRef .tc main_arg0))) : W2 m ρ c (Proc.devRef .tc main_arg0) = W0 m ρ c (Proc.devRef .tc main_arg0)) (((keepR0 m ρ c main_arg1 (by decide)).trans (keepH0 (W0 m ρ c) (by decide) : W1 m ρ c (Proc.devRef .tc main_arg1) = W0 m ρ c (Proc.devRef .tc main_arg1))) : W2 m ρ c (Proc.devRef .tc main_arg1) = W0 m ρ c (Proc.devRef .tc main_arg1))
    (h1_1 m ρ c) (((keepR0 m ρ c main_v10 (by decide)) : W2 m ρ c (Proc.devRef .tc main_v10) = W1 m ρ c (Proc.devRef .tc main_v10)).trans (cs1 m ρ c)))

theorem h2_1 : W4 m ρ c (Proc.devRef .tc main_v40) = (GcnSpec.feat2 (F := Ideal) (W0 m ρ c (Proc.devRef .tc main_arg0)) (W0 m ρ c (Proc.devRef .tc main_arg1)) (W0 m ρ c (Proc.devRef .tc main_arg6)) (W0 m ρ c (Proc.devRef .tc main_arg7)) (W0 m ρ c (Proc.devRef .tc main_arg8)) (W0 m ρ c (Proc.devRef .tc main_arg9))) :=
  (W4_arr m ρ c 4).trans ((arr1 (V3 m ρ) c).trans (congr4 (GcnSpec.layerN (F := Ideal)) (g1_1 m ρ c)
    ((((keepH1 (W2 m ρ c) (by decide) : W3 m ρ c (Proc.devRef .tc main_v14) = W2 m ρ c (Proc.devRef .tc main_v14)).trans (keepR0 m ρ c main_v14 (by decide))) : W3 m ρ c (Proc.devRef .tc main_v14) = W1 m ρ c (Proc.devRef .tc main_v14)).trans (cd1 m ρ c)) (((keepH1 (W2 m ρ c) (by decide) : W3 m ρ c (Proc.devRef .tc main_arg8) = W2 m ρ c (Proc.devRef .tc main_arg8)).trans ((keepR0 m ρ c main_arg8 (by decide)).trans (keepH0 (W0 m ρ c) (by decide) : W1 m ρ c (Proc.devRef .tc main_arg8) = W0 m ρ c (Proc.devRef .tc main_arg8)))) : W3 m ρ c (Proc.devRef .tc main_arg8) = W0 m ρ c (Proc.devRef .tc main_arg8)) (((keepH1 (W2 m ρ c) (by decide) : W3 m ρ c (Proc.devRef .tc main_arg9) = W2 m ρ c (Proc.devRef .tc main_arg9)).trans ((keepR0 m ρ c main_arg9 (by decide)).trans (keepH0 (W0 m ρ c) (by decide) : W1 m ρ c (Proc.devRef .tc main_arg9) = W0 m ρ c (Proc.devRef .tc main_arg9)))) : W3 m ρ c (Proc.devRef .tc main_arg9) = W0 m ρ c (Proc.devRef .tc main_arg9))))

theorem g2_1 : W5 m ρ c (Proc.devRef .tc main_v52) = GcnSpec.aggN (F := Ideal) (W0 m ρ c (Proc.devRef .tc main_arg0)) (W0 m ρ c (Proc.devRef .tc main_arg1)) (GcnSpec.feat2 (F := Ideal) (W0 m ρ c (Proc.devRef .tc main_arg0)) (W0 m ρ c (Proc.devRef .tc main_arg1)) (W0 m ρ c (Proc.devRef .tc main_arg6)) (W0 m ρ c (Proc.devRef .tc main_arg7)) (W0 m ρ c (Proc.devRef .tc main_arg8)) (W0 m ρ c (Proc.devRef .tc main_arg9))) (GcnSpec.norm (F := Ideal) (GcnSpec.deg (W0 m ρ c (Proc.devRef .tc main_arg0)))) :=
  (s2_agg (W4 m ρ c)).trans (congr4 (GcnSpec.aggN (F := Ideal)) (((keepR1 m ρ c main_arg0 (by decide)).trans ((keepH1 (W2 m ρ c) (by decide) : W3 m ρ c (Proc.devRef .tc main_arg0) = W2 m ρ c (Proc.devRef .tc main_arg0)).trans ((keepR0 m ρ c main_arg0 (by decide)).trans (keepH0 (W0 m ρ c) (by decide) : W1 m ρ c (Proc.devRef .tc main_arg0) = W0 m ρ c (Proc.devRef .tc main_arg0))))) : W4 m ρ c (Proc.devRef .tc main_arg0) = W0 m ρ c (Proc.devRef .tc main_arg0)) (((keepR1 m ρ c main_arg1 (by decide)).trans ((keepH1 (W2 m ρ c) (by decide) : W3 m ρ c (Proc.devRef .tc main_arg1) = W2 m ρ c (Proc.devRef .tc main_arg1)).trans ((keepR0 m ρ c main_arg1 (by decide)).trans (keepH0 (W0 m ρ c) (by decide) : W1 m ρ c (Proc.devRef .tc main_arg1) = W0 m ρ c (Proc.devRef .tc main_arg1))))) : W4 m ρ c (Proc.devRef .tc main_arg1) = W0 m ρ c (Proc.devRef .tc main_arg1))
    (h2_1 m ρ c) ((((keepR1 m ρ c main_v10 (by decide)).trans ((keepH1 (W2 m ρ c) (by decide) : W3 m ρ c (Proc.devRef .tc main_v10) = W2 m ρ c (Proc.devRef .tc main_v10)).trans (keepR0 m ρ c main_v10 (by decide)))) : W4 m ρ c (Proc.devRef .tc main_v10) = W1 m ρ c (Proc.devRef .tc main_v10)).trans (cs1 m ρ c)))

theorem h3_1 : W6 m ρ c (Proc.devRef .tc main_v53) = (GcnSpec.feat3 (F := Ideal) (W0 m ρ c (Proc.devRef .tc main_arg0)) (W0 m ρ c (Proc.devRef .tc main_arg1)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) :=
  (W6_arr m ρ c 4).trans ((arr2 (V5 m ρ) c).trans (congr4 (GcnSpec.layerN (F := Ideal)) (g2_1 m ρ c)
    ((((keepH2 (W4 m ρ c) (by decide) : W5 m ρ c (Proc.devRef .tc main_v14) = W4 m ρ c (Proc.devRef .tc main_v14)).trans ((keepR1 m ρ c main_v14 (by decide)).trans ((keepH1 (W2 m ρ c) (by decide) : W3 m ρ c (Proc.devRef .tc main_v14) = W2 m ρ c (Proc.devRef .tc main_v14)).trans (keepR0 m ρ c main_v14 (by decide))))) : W5 m ρ c (Proc.devRef .tc main_v14) = W1 m ρ c (Proc.devRef .tc main_v14)).trans (cd1 m ρ c)) (((keepH2 (W4 m ρ c) (by decide) : W5 m ρ c (Proc.devRef .tc main_arg10) = W4 m ρ c (Proc.devRef .tc main_arg10)).trans ((keepR1 m ρ c main_arg10 (by decide)).trans ((keepH1 (W2 m ρ c) (by decide) : W3 m ρ c (Proc.devRef .tc main_arg10) = W2 m ρ c (Proc.devRef .tc main_arg10)).trans ((keepR0 m ρ c main_arg10 (by decide)).trans (keepH0 (W0 m ρ c) (by decide) : W1 m ρ c (Proc.devRef .tc main_arg10) = W0 m ρ c (Proc.devRef .tc main_arg10)))))) : W5 m ρ c (Proc.devRef .tc main_arg10) = W0 m ρ c (Proc.devRef .tc main_arg10)) (((keepH2 (W4 m ρ c) (by decide) : W5 m ρ c (Proc.devRef .tc main_arg11) = W4 m ρ c (Proc.devRef .tc main_arg11)).trans ((keepR1 m ρ c main_arg11 (by decide)).trans ((keepH1 (W2 m ρ c) (by decide) : W3 m ρ c (Proc.devRef .tc main_arg11) = W2 m ρ c (Proc.devRef .tc main_arg11)).trans ((keepR0 m ρ c main_arg11 (by decide)).trans (keepH0 (W0 m ρ c) (by decide) : W1 m ρ c (Proc.devRef .tc main_arg11) = W0 m ρ c (Proc.devRef .tc main_arg11)))))) : W5 m ρ c (Proc.devRef .tc main_arg11) = W0 m ρ c (Proc.devRef .tc main_arg11))))

theorem g3_1 : W7 m ρ c (Proc.devRef .tc main_v65) = GcnSpec.aggN (F := Ideal) (W0 m ρ c (Proc.devRef .tc main_arg0)) (W0 m ρ c (Proc.devRef .tc main_arg1)) (GcnSpec.feat3 (F := Ideal) (W0 m ρ c (Proc.devRef .tc main_arg0)) (W0 m ρ c (Proc.devRef .tc main_arg1)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (GcnSpec.norm (F := Ideal) (GcnSpec.deg (W0 m ρ c (Proc.devRef .tc main_arg0)))) :=
  (s3_agg (W6 m ρ c)).trans (congr4 (GcnSpec.aggN (F := Ideal)) (((keepR2 m ρ c main_arg0 (by decide)).trans ((keepH2 (W4 m ρ c) (by decide) : W5 m ρ c (Proc.devRef .tc main_arg0) = W4 m ρ c (Proc.devRef .tc main_arg0)).trans ((keepR1 m ρ c main_arg0 (by decide)).trans ((keepH1 (W2 m ρ c) (by decide) : W3 m ρ c (Proc.devRef .tc main_arg0) = W2 m ρ c (Proc.devRef .tc main_arg0)).trans ((keepR0 m ρ c main_arg0 (by decide)).trans (keepH0 (W0 m ρ c) (by decide) : W1 m ρ c (Proc.devRef .tc main_arg0) = W0 m ρ c (Proc.devRef .tc main_arg0))))))) : W6 m ρ c (Proc.devRef .tc main_arg0) = W0 m ρ c (Proc.devRef .tc main_arg0)) (((keepR2 m ρ c main_arg1 (by decide)).trans ((keepH2 (W4 m ρ c) (by decide) : W5 m ρ c (Proc.devRef .tc main_arg1) = W4 m ρ c (Proc.devRef .tc main_arg1)).trans ((keepR1 m ρ c main_arg1 (by decide)).trans ((keepH1 (W2 m ρ c) (by decide) : W3 m ρ c (Proc.devRef .tc main_arg1) = W2 m ρ c (Proc.devRef .tc main_arg1)).trans ((keepR0 m ρ c main_arg1 (by decide)).trans (keepH0 (W0 m ρ c) (by decide) : W1 m ρ c (Proc.devRef .tc main_arg1) = W0 m ρ c (Proc.devRef .tc main_arg1))))))) : W6 m ρ c (Proc.devRef .tc main_arg1) = W0 m ρ c (Proc.devRef .tc main_arg1))
    (h3_1 m ρ c) ((((keepR2 m ρ c main_v10 (by decide)).trans ((keepH2 (W4 m ρ c) (by decide) : W5 m ρ c (Proc.devRef .tc main_v10) = W4 m ρ c (Proc.devRef .tc main_v10)).trans ((keepR1 m ρ c main_v10 (by decide)).trans ((keepH1 (W2 m ρ c) (by decide) : W3 m ρ c (Proc.devRef .tc main_v10) = W2 m ρ c (Proc.devRef .tc main_v10)).trans (keepR0 m ρ c main_v10 (by decide)))))) : W6 m ρ c (Proc.devRef .tc main_v10) = W1 m ρ c (Proc.devRef .tc main_v10)).trans (cs1 m ρ c)))

theorem h4_1 : W8 m ρ c (Proc.devRef .tc main_v66) = (GcnSpec.feat4 (F := Ideal) (W0 m ρ c (Proc.devRef .tc main_arg0)) (W0 m ρ c (Proc.devRef .tc main_arg1)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (W8_arr m ρ c 4).trans ((arr3 (V7 m ρ) c).trans (congr4 (GcnSpec.layerN (F := Ideal)) (g3_1 m ρ c)
    ((((keepH3 (W6 m ρ c) (by decide) : W7 m ρ c (Proc.devRef .tc main_v14) = W6 m ρ c (Proc.devRef .tc main_v14)).trans ((keepR2 m ρ c main_v14 (by decide)).trans ((keepH2 (W4 m ρ c) (by decide) : W5 m ρ c (Proc.devRef .tc main_v14) = W4 m ρ c (Proc.devRef .tc main_v14)).trans ((keepR1 m ρ c main_v14 (by decide)).trans ((keepH1 (W2 m ρ c) (by decide) : W3 m ρ c (Proc.devRef .tc main_v14) = W2 m ρ c (Proc.devRef .tc main_v14)).trans (keepR0 m ρ c main_v14 (by decide))))))) : W7 m ρ c (Proc.devRef .tc main_v14) = W1 m ρ c (Proc.devRef .tc main_v14)).trans (cd1 m ρ c)) (((keepH3 (W6 m ρ c) (by decide) : W7 m ρ c (Proc.devRef .tc main_arg12) = W6 m ρ c (Proc.devRef .tc main_arg12)).trans ((keepR2 m ρ c main_arg12 (by decide)).trans ((keepH2 (W4 m ρ c) (by decide) : W5 m ρ c (Proc.devRef .tc main_arg12) = W4 m ρ c (Proc.devRef .tc main_arg12)).trans ((keepR1 m ρ c main_arg12 (by decide)).trans ((keepH1 (W2 m ρ c) (by decide) : W3 m ρ c (Proc.devRef .tc main_arg12) = W2 m ρ c (Proc.devRef .tc main_arg12)).trans ((keepR0 m ρ c main_arg12 (by decide)).trans (keepH0 (W0 m ρ c) (by decide) : W1 m ρ c (Proc.devRef .tc main_arg12) = W0 m ρ c (Proc.devRef .tc main_arg12)))))))) : W7 m ρ c (Proc.devRef .tc main_arg12) = W0 m ρ c (Proc.devRef .tc main_arg12)) (((keepH3 (W6 m ρ c) (by decide) : W7 m ρ c (Proc.devRef .tc main_arg13) = W6 m ρ c (Proc.devRef .tc main_arg13)).trans ((keepR2 m ρ c main_arg13 (by decide)).trans ((keepH2 (W4 m ρ c) (by decide) : W5 m ρ c (Proc.devRef .tc main_arg13) = W4 m ρ c (Proc.devRef .tc main_arg13)).trans ((keepR1 m ρ c main_arg13 (by decide)).trans ((keepH1 (W2 m ρ c) (by decide) : W3 m ρ c (Proc.devRef .tc main_arg13) = W2 m ρ c (Proc.devRef .tc main_arg13)).trans ((keepR0 m ρ c main_arg13 (by decide)).trans (keepH0 (W0 m ρ c) (by decide) : W1 m ρ c (Proc.devRef .tc main_arg13) = W0 m ρ c (Proc.devRef .tc main_arg13)))))))) : W7 m ρ c (Proc.devRef .tc main_arg13) = W0 m ρ c (Proc.devRef .tc main_arg13))))

theorem out1 : W9 m ρ c (Proc.devRef .tc main_v78) = (GcnSpec.branch (F := Ideal) (W0 m ρ c (Proc.devRef .tc main_arg0)) (W0 m ρ c (Proc.devRef .tc main_arg1)) (W0 m ρ c (Proc.devRef .tc main_arg2)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (s4_out (W8 m ρ c)).trans (congrArg₂ (GcnSpec.readout (F := Ideal)) (h4_1 m ρ c) (((keepR3 m ρ c main_arg2 (by decide)).trans ((keepH3 (W6 m ρ c) (by decide) : W7 m ρ c (Proc.devRef .tc main_arg2) = W6 m ρ c (Proc.devRef .tc main_arg2)).trans ((keepR2 m ρ c main_arg2 (by decide)).trans ((keepH2 (W4 m ρ c) (by decide) : W5 m ρ c (Proc.devRef .tc main_arg2) = W4 m ρ c (Proc.devRef .tc main_arg2)).trans ((keepR1 m ρ c main_arg2 (by decide)).trans ((keepH1 (W2 m ρ c) (by decide) : W3 m ρ c (Proc.devRef .tc main_arg2) = W2 m ρ c (Proc.devRef .tc main_arg2)).trans ((keepR0 m ρ c main_arg2 (by decide)).trans (keepH0 (W0 m ρ c) (by decide) : W1 m ρ c (Proc.devRef .tc main_arg2) = W0 m ρ c (Proc.devRef .tc main_arg2))))))))) : W8 m ρ c (Proc.devRef .tc main_arg2) = W0 m ρ c (Proc.devRef .tc main_arg2)))

/-! ## Branch 2 -/

theorem cs2 : W9 m ρ c (Proc.devRef .tc main_v89) = (GcnSpec.norm (F := Ideal) (GcnSpec.deg (W0 m ρ c (Proc.devRef .tc main_arg3)))) :=
  (s4_cs (W8 m ρ c)).trans (congrArg (fun x => GcnSpec.norm (F := Ideal) (GcnSpec.deg x)) (((keepR3 m ρ c main_arg3 (by decide)).trans ((keepH3 (W6 m ρ c) (by decide) : W7 m ρ c (Proc.devRef .tc main_arg3) = W6 m ρ c (Proc.devRef .tc main_arg3)).trans ((keepR2 m ρ c main_arg3 (by decide)).trans ((keepH2 (W4 m ρ c) (by decide) : W5 m ρ c (Proc.devRef .tc main_arg3) = W4 m ρ c (Proc.devRef .tc main_arg3)).trans ((keepR1 m ρ c main_arg3 (by decide)).trans ((keepH1 (W2 m ρ c) (by decide) : W3 m ρ c (Proc.devRef .tc main_arg3) = W2 m ρ c (Proc.devRef .tc main_arg3)).trans ((keepR0 m ρ c main_arg3 (by decide)).trans (keepH0 (W0 m ρ c) (by decide) : W1 m ρ c (Proc.devRef .tc main_arg3) = W0 m ρ c (Proc.devRef .tc main_arg3))))))))) : W8 m ρ c (Proc.devRef .tc main_arg3) = W0 m ρ c (Proc.devRef .tc main_arg3)))

theorem cd2 : W9 m ρ c (Proc.devRef .tc main_v93) = (GcnSpec.norm (F := Ideal) (GcnSpec.deg (W0 m ρ c (Proc.devRef .tc main_arg4)))) :=
  (s4_cd (W8 m ρ c)).trans (congrArg (fun x => GcnSpec.norm (F := Ideal) (GcnSpec.deg x)) (((keepR3 m ρ c main_arg4 (by decide)).trans ((keepH3 (W6 m ρ c) (by decide) : W7 m ρ c (Proc.devRef .tc main_arg4) = W6 m ρ c (Proc.devRef .tc main_arg4)).trans ((keepR2 m ρ c main_arg4 (by decide)).trans ((keepH2 (W4 m ρ c) (by decide) : W5 m ρ c (Proc.devRef .tc main_arg4) = W4 m ρ c (Proc.devRef .tc main_arg4)).trans ((keepR1 m ρ c main_arg4 (by decide)).trans ((keepH1 (W2 m ρ c) (by decide) : W3 m ρ c (Proc.devRef .tc main_arg4) = W2 m ρ c (Proc.devRef .tc main_arg4)).trans ((keepR0 m ρ c main_arg4 (by decide)).trans (keepH0 (W0 m ρ c) (by decide) : W1 m ρ c (Proc.devRef .tc main_arg4) = W0 m ρ c (Proc.devRef .tc main_arg4))))))))) : W8 m ρ c (Proc.devRef .tc main_arg4) = W0 m ρ c (Proc.devRef .tc main_arg4)))

theorem g0_2 : W9 m ρ c (Proc.devRef .tc main_v105) = GcnSpec.agg1 (F := Ideal) (W0 m ρ c (Proc.devRef .tc main_arg3)) (W0 m ρ c (Proc.devRef .tc main_arg4)) (mulf (GcnSpec.col (GcnSpec.deg (W0 m ρ c (Proc.devRef .tc main_arg4)))) (GcnSpec.norm (F := Ideal) (GcnSpec.deg (W0 m ρ c (Proc.devRef .tc main_arg3))))) :=
  (s4_agg (W8 m ρ c)).trans (congrArg₂ (fun x y => GcnSpec.agg1 (F := Ideal) x y (mulf (GcnSpec.col (GcnSpec.deg y)) (GcnSpec.norm (GcnSpec.deg x)))) (((keepR3 m ρ c main_arg3 (by decide)).trans ((keepH3 (W6 m ρ c) (by decide) : W7 m ρ c (Proc.devRef .tc main_arg3) = W6 m ρ c (Proc.devRef .tc main_arg3)).trans ((keepR2 m ρ c main_arg3 (by decide)).trans ((keepH2 (W4 m ρ c) (by decide) : W5 m ρ c (Proc.devRef .tc main_arg3) = W4 m ρ c (Proc.devRef .tc main_arg3)).trans ((keepR1 m ρ c main_arg3 (by decide)).trans ((keepH1 (W2 m ρ c) (by decide) : W3 m ρ c (Proc.devRef .tc main_arg3) = W2 m ρ c (Proc.devRef .tc main_arg3)).trans ((keepR0 m ρ c main_arg3 (by decide)).trans (keepH0 (W0 m ρ c) (by decide) : W1 m ρ c (Proc.devRef .tc main_arg3) = W0 m ρ c (Proc.devRef .tc main_arg3))))))))) : W8 m ρ c (Proc.devRef .tc main_arg3) = W0 m ρ c (Proc.devRef .tc main_arg3)) (((keepR3 m ρ c main_arg4 (by decide)).trans ((keepH3 (W6 m ρ c) (by decide) : W7 m ρ c (Proc.devRef .tc main_arg4) = W6 m ρ c (Proc.devRef .tc main_arg4)).trans ((keepR2 m ρ c main_arg4 (by decide)).trans ((keepH2 (W4 m ρ c) (by decide) : W5 m ρ c (Proc.devRef .tc main_arg4) = W4 m ρ c (Proc.devRef .tc main_arg4)).trans ((keepR1 m ρ c main_arg4 (by decide)).trans ((keepH1 (W2 m ρ c) (by decide) : W3 m ρ c (Proc.devRef .tc main_arg4) = W2 m ρ c (Proc.devRef .tc main_arg4)).trans ((keepR0 m ρ c main_arg4 (by decide)).trans (keepH0 (W0 m ρ c) (by decide) : W1 m ρ c (Proc.devRef .tc main_arg4) = W0 m ρ c (Proc.devRef .tc main_arg4))))))))) : W8 m ρ c (Proc.devRef .tc main_arg4) = W0 m ρ c (Proc.devRef .tc main_arg4)))

theorem h1_2 : W10 m ρ c (Proc.devRef .tc main_v106) = (GcnSpec.feat1 (F := Ideal) (W0 m ρ c (Proc.devRef .tc main_arg3)) (W0 m ρ c (Proc.devRef .tc main_arg4)) (W0 m ρ c (Proc.devRef .tc main_arg6)) (W0 m ρ c (Proc.devRef .tc main_arg7))) :=
  (W10_arr m ρ c 4).trans ((arr4 (V9 m ρ) c).trans (congr4 (GcnSpec.layer1 (F := Ideal)) (g0_2 m ρ c)
    (rfl.trans (cd2 m ρ c)) (((keepH4 (W8 m ρ c) (by decide) : W9 m ρ c (Proc.devRef .tc main_arg6) = W8 m ρ c (Proc.devRef .tc main_arg6)).trans ((keepR3 m ρ c main_arg6 (by decide)).trans ((keepH3 (W6 m ρ c) (by decide) : W7 m ρ c (Proc.devRef .tc main_arg6) = W6 m ρ c (Proc.devRef .tc main_arg6)).trans ((keepR2 m ρ c main_arg6 (by decide)).trans ((keepH2 (W4 m ρ c) (by decide) : W5 m ρ c (Proc.devRef .tc main_arg6) = W4 m ρ c (Proc.devRef .tc main_arg6)).trans ((keepR1 m ρ c main_arg6 (by decide)).trans ((keepH1 (W2 m ρ c) (by decide) : W3 m ρ c (Proc.devRef .tc main_arg6) = W2 m ρ c (Proc.devRef .tc main_arg6)).trans ((keepR0 m ρ c main_arg6 (by decide)).trans (keepH0 (W0 m ρ c) (by decide) : W1 m ρ c (Proc.devRef .tc main_arg6) = W0 m ρ c (Proc.devRef .tc main_arg6)))))))))) : W9 m ρ c (Proc.devRef .tc main_arg6) = W0 m ρ c (Proc.devRef .tc main_arg6)) (((keepH4 (W8 m ρ c) (by decide) : W9 m ρ c (Proc.devRef .tc main_arg7) = W8 m ρ c (Proc.devRef .tc main_arg7)).trans ((keepR3 m ρ c main_arg7 (by decide)).trans ((keepH3 (W6 m ρ c) (by decide) : W7 m ρ c (Proc.devRef .tc main_arg7) = W6 m ρ c (Proc.devRef .tc main_arg7)).trans ((keepR2 m ρ c main_arg7 (by decide)).trans ((keepH2 (W4 m ρ c) (by decide) : W5 m ρ c (Proc.devRef .tc main_arg7) = W4 m ρ c (Proc.devRef .tc main_arg7)).trans ((keepR1 m ρ c main_arg7 (by decide)).trans ((keepH1 (W2 m ρ c) (by decide) : W3 m ρ c (Proc.devRef .tc main_arg7) = W2 m ρ c (Proc.devRef .tc main_arg7)).trans ((keepR0 m ρ c main_arg7 (by decide)).trans (keepH0 (W0 m ρ c) (by decide) : W1 m ρ c (Proc.devRef .tc main_arg7) = W0 m ρ c (Proc.devRef .tc main_arg7)))))))))) : W9 m ρ c (Proc.devRef .tc main_arg7) = W0 m ρ c (Proc.devRef .tc main_arg7))))

theorem g1_2 : W11 m ρ c (Proc.devRef .tc main_v118) = GcnSpec.aggN (F := Ideal) (W0 m ρ c (Proc.devRef .tc main_arg3)) (W0 m ρ c (Proc.devRef .tc main_arg4)) (GcnSpec.feat1 (F := Ideal) (W0 m ρ c (Proc.devRef .tc main_arg3)) (W0 m ρ c (Proc.devRef .tc main_arg4)) (W0 m ρ c (Proc.devRef .tc main_arg6)) (W0 m ρ c (Proc.devRef .tc main_arg7))) (GcnSpec.norm (F := Ideal) (GcnSpec.deg (W0 m ρ c (Proc.devRef .tc main_arg3)))) :=
  (s5_agg (W10 m ρ c)).trans (congr4 (GcnSpec.aggN (F := Ideal)) (((keepR4 m ρ c main_arg3 (by decide)).trans ((keepH4 (W8 m ρ c) (by decide) : W9 m ρ c (Proc.devRef .tc main_arg3) = W8 m ρ c (Proc.devRef .tc main_arg3)).trans ((keepR3 m ρ c main_arg3 (by decide)).trans ((keepH3 (W6 m ρ c) (by decide) : W7 m ρ c (Proc.devRef .tc main_arg3) = W6 m ρ c (Proc.devRef .tc main_arg3)).trans ((keepR2 m ρ c main_arg3 (by decide)).trans ((keepH2 (W4 m ρ c) (by decide) : W5 m ρ c (Proc.devRef .tc main_arg3) = W4 m ρ c (Proc.devRef .tc main_arg3)).trans ((keepR1 m ρ c main_arg3 (by decide)).trans ((keepH1 (W2 m ρ c) (by decide) : W3 m ρ c (Proc.devRef .tc main_arg3) = W2 m ρ c (Proc.devRef .tc main_arg3)).trans ((keepR0 m ρ c main_arg3 (by decide)).trans (keepH0 (W0 m ρ c) (by decide) : W1 m ρ c (Proc.devRef .tc main_arg3) = W0 m ρ c (Proc.devRef .tc main_arg3))))))))))) : W10 m ρ c (Proc.devRef .tc main_arg3) = W0 m ρ c (Proc.devRef .tc main_arg3)) (((keepR4 m ρ c main_arg4 (by decide)).trans ((keepH4 (W8 m ρ c) (by decide) : W9 m ρ c (Proc.devRef .tc main_arg4) = W8 m ρ c (Proc.devRef .tc main_arg4)).trans ((keepR3 m ρ c main_arg4 (by decide)).trans ((keepH3 (W6 m ρ c) (by decide) : W7 m ρ c (Proc.devRef .tc main_arg4) = W6 m ρ c (Proc.devRef .tc main_arg4)).trans ((keepR2 m ρ c main_arg4 (by decide)).trans ((keepH2 (W4 m ρ c) (by decide) : W5 m ρ c (Proc.devRef .tc main_arg4) = W4 m ρ c (Proc.devRef .tc main_arg4)).trans ((keepR1 m ρ c main_arg4 (by decide)).trans ((keepH1 (W2 m ρ c) (by decide) : W3 m ρ c (Proc.devRef .tc main_arg4) = W2 m ρ c (Proc.devRef .tc main_arg4)).trans ((keepR0 m ρ c main_arg4 (by decide)).trans (keepH0 (W0 m ρ c) (by decide) : W1 m ρ c (Proc.devRef .tc main_arg4) = W0 m ρ c (Proc.devRef .tc main_arg4))))))))))) : W10 m ρ c (Proc.devRef .tc main_arg4) = W0 m ρ c (Proc.devRef .tc main_arg4))
    (h1_2 m ρ c) (((keepR4 m ρ c main_v89 (by decide)) : W10 m ρ c (Proc.devRef .tc main_v89) = W9 m ρ c (Proc.devRef .tc main_v89)).trans (cs2 m ρ c)))

theorem h2_2 : W12 m ρ c (Proc.devRef .tc main_v119) = (GcnSpec.feat2 (F := Ideal) (W0 m ρ c (Proc.devRef .tc main_arg3)) (W0 m ρ c (Proc.devRef .tc main_arg4)) (W0 m ρ c (Proc.devRef .tc main_arg6)) (W0 m ρ c (Proc.devRef .tc main_arg7)) (W0 m ρ c (Proc.devRef .tc main_arg8)) (W0 m ρ c (Proc.devRef .tc main_arg9))) :=
  (W12_arr m ρ c 4).trans ((arr5 (V11 m ρ) c).trans (congr4 (GcnSpec.layerN (F := Ideal)) (g1_2 m ρ c)
    ((((keepH5 (W10 m ρ c) (by decide) : W11 m ρ c (Proc.devRef .tc main_v93) = W10 m ρ c (Proc.devRef .tc main_v93)).trans (keepR4 m ρ c main_v93 (by decide))) : W11 m ρ c (Proc.devRef .tc main_v93) = W9 m ρ c (Proc.devRef .tc main_v93)).trans (cd2 m ρ c)) (((keepH5 (W10 m ρ c) (by decide) : W11 m ρ c (Proc.devRef .tc main_arg8) = W10 m ρ c (Proc.devRef .tc main_arg8)).trans ((keepR4 m ρ c main_arg8 (by decide)).trans ((keepH4 (W8 m ρ c) (by decide) : W9 m ρ c (Proc.devRef .tc main_arg8) = W8 m ρ c (Proc.devRef .tc main_arg8)).trans ((keepR3 m ρ c main_arg8 (by decide)).trans ((keepH3 (W6 m ρ c) (by decide) : W7 m ρ c (Proc.devRef .tc main_arg8) = W6 m ρ c (Proc.devRef .tc main_arg8)).trans ((keepR2 m ρ c main_arg8 (by decide)).trans ((keepH2 (W4 m ρ c) (by decide) : W5 m ρ c (Proc.devRef .tc main_arg8) = W4 m ρ c (Proc.devRef .tc main_arg8)).trans ((keepR1 m ρ c main_arg8 (by decide)).trans ((keepH1 (W2 m ρ c) (by decide) : W3 m ρ c (Proc.devRef .tc main_arg8) = W2 m ρ c (Proc.devRef .tc main_arg8)).trans ((keepR0 m ρ c main_arg8 (by decide)).trans (keepH0 (W0 m ρ c) (by decide) : W1 m ρ c (Proc.devRef .tc main_arg8) = W0 m ρ c (Proc.devRef .tc main_arg8)))))))))))) : W11 m ρ c (Proc.devRef .tc main_arg8) = W0 m ρ c (Proc.devRef .tc main_arg8)) (((keepH5 (W10 m ρ c) (by decide) : W11 m ρ c (Proc.devRef .tc main_arg9) = W10 m ρ c (Proc.devRef .tc main_arg9)).trans ((keepR4 m ρ c main_arg9 (by decide)).trans ((keepH4 (W8 m ρ c) (by decide) : W9 m ρ c (Proc.devRef .tc main_arg9) = W8 m ρ c (Proc.devRef .tc main_arg9)).trans ((keepR3 m ρ c main_arg9 (by decide)).trans ((keepH3 (W6 m ρ c) (by decide) : W7 m ρ c (Proc.devRef .tc main_arg9) = W6 m ρ c (Proc.devRef .tc main_arg9)).trans ((keepR2 m ρ c main_arg9 (by decide)).trans ((keepH2 (W4 m ρ c) (by decide) : W5 m ρ c (Proc.devRef .tc main_arg9) = W4 m ρ c (Proc.devRef .tc main_arg9)).trans ((keepR1 m ρ c main_arg9 (by decide)).trans ((keepH1 (W2 m ρ c) (by decide) : W3 m ρ c (Proc.devRef .tc main_arg9) = W2 m ρ c (Proc.devRef .tc main_arg9)).trans ((keepR0 m ρ c main_arg9 (by decide)).trans (keepH0 (W0 m ρ c) (by decide) : W1 m ρ c (Proc.devRef .tc main_arg9) = W0 m ρ c (Proc.devRef .tc main_arg9)))))))))))) : W11 m ρ c (Proc.devRef .tc main_arg9) = W0 m ρ c (Proc.devRef .tc main_arg9))))

theorem g2_2 : W13 m ρ c (Proc.devRef .tc main_v131) = GcnSpec.aggN (F := Ideal) (W0 m ρ c (Proc.devRef .tc main_arg3)) (W0 m ρ c (Proc.devRef .tc main_arg4)) (GcnSpec.feat2 (F := Ideal) (W0 m ρ c (Proc.devRef .tc main_arg3)) (W0 m ρ c (Proc.devRef .tc main_arg4)) (W0 m ρ c (Proc.devRef .tc main_arg6)) (W0 m ρ c (Proc.devRef .tc main_arg7)) (W0 m ρ c (Proc.devRef .tc main_arg8)) (W0 m ρ c (Proc.devRef .tc main_arg9))) (GcnSpec.norm (F := Ideal) (GcnSpec.deg (W0 m ρ c (Proc.devRef .tc main_arg3)))) :=
  (s6_agg (W12 m ρ c)).trans (congr4 (GcnSpec.aggN (F := Ideal)) (((keepR5 m ρ c main_arg3 (by decide)).trans ((keepH5 (W10 m ρ c) (by decide) : W11 m ρ c (Proc.devRef .tc main_arg3) = W10 m ρ c (Proc.devRef .tc main_arg3)).trans ((keepR4 m ρ c main_arg3 (by decide)).trans ((keepH4 (W8 m ρ c) (by decide) : W9 m ρ c (Proc.devRef .tc main_arg3) = W8 m ρ c (Proc.devRef .tc main_arg3)).trans ((keepR3 m ρ c main_arg3 (by decide)).trans ((keepH3 (W6 m ρ c) (by decide) : W7 m ρ c (Proc.devRef .tc main_arg3) = W6 m ρ c (Proc.devRef .tc main_arg3)).trans ((keepR2 m ρ c main_arg3 (by decide)).trans ((keepH2 (W4 m ρ c) (by decide) : W5 m ρ c (Proc.devRef .tc main_arg3) = W4 m ρ c (Proc.devRef .tc main_arg3)).trans ((keepR1 m ρ c main_arg3 (by decide)).trans ((keepH1 (W2 m ρ c) (by decide) : W3 m ρ c (Proc.devRef .tc main_arg3) = W2 m ρ c (Proc.devRef .tc main_arg3)).trans ((keepR0 m ρ c main_arg3 (by decide)).trans (keepH0 (W0 m ρ c) (by decide) : W1 m ρ c (Proc.devRef .tc main_arg3) = W0 m ρ c (Proc.devRef .tc main_arg3))))))))))))) : W12 m ρ c (Proc.devRef .tc main_arg3) = W0 m ρ c (Proc.devRef .tc main_arg3)) (((keepR5 m ρ c main_arg4 (by decide)).trans ((keepH5 (W10 m ρ c) (by decide) : W11 m ρ c (Proc.devRef .tc main_arg4) = W10 m ρ c (Proc.devRef .tc main_arg4)).trans ((keepR4 m ρ c main_arg4 (by decide)).trans ((keepH4 (W8 m ρ c) (by decide) : W9 m ρ c (Proc.devRef .tc main_arg4) = W8 m ρ c (Proc.devRef .tc main_arg4)).trans ((keepR3 m ρ c main_arg4 (by decide)).trans ((keepH3 (W6 m ρ c) (by decide) : W7 m ρ c (Proc.devRef .tc main_arg4) = W6 m ρ c (Proc.devRef .tc main_arg4)).trans ((keepR2 m ρ c main_arg4 (by decide)).trans ((keepH2 (W4 m ρ c) (by decide) : W5 m ρ c (Proc.devRef .tc main_arg4) = W4 m ρ c (Proc.devRef .tc main_arg4)).trans ((keepR1 m ρ c main_arg4 (by decide)).trans ((keepH1 (W2 m ρ c) (by decide) : W3 m ρ c (Proc.devRef .tc main_arg4) = W2 m ρ c (Proc.devRef .tc main_arg4)).trans ((keepR0 m ρ c main_arg4 (by decide)).trans (keepH0 (W0 m ρ c) (by decide) : W1 m ρ c (Proc.devRef .tc main_arg4) = W0 m ρ c (Proc.devRef .tc main_arg4))))))))))))) : W12 m ρ c (Proc.devRef .tc main_arg4) = W0 m ρ c (Proc.devRef .tc main_arg4))
    (h2_2 m ρ c) ((((keepR5 m ρ c main_v89 (by decide)).trans ((keepH5 (W10 m ρ c) (by decide) : W11 m ρ c (Proc.devRef .tc main_v89) = W10 m ρ c (Proc.devRef .tc main_v89)).trans (keepR4 m ρ c main_v89 (by decide)))) : W12 m ρ c (Proc.devRef .tc main_v89) = W9 m ρ c (Proc.devRef .tc main_v89)).trans (cs2 m ρ c)))

theorem h3_2 : W14 m ρ c (Proc.devRef .tc main_v132) = (GcnSpec.feat3 (F := Ideal) (W0 m ρ c (Proc.devRef .tc main_arg3)) (W0 m ρ c (Proc.devRef .tc main_arg4)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) :=
  (W14_arr m ρ c 4).trans ((arr6 (V13 m ρ) c).trans (congr4 (GcnSpec.layerN (F := Ideal)) (g2_2 m ρ c)
    ((((keepH6 (W12 m ρ c) (by decide) : W13 m ρ c (Proc.devRef .tc main_v93) = W12 m ρ c (Proc.devRef .tc main_v93)).trans ((keepR5 m ρ c main_v93 (by decide)).trans ((keepH5 (W10 m ρ c) (by decide) : W11 m ρ c (Proc.devRef .tc main_v93) = W10 m ρ c (Proc.devRef .tc main_v93)).trans (keepR4 m ρ c main_v93 (by decide))))) : W13 m ρ c (Proc.devRef .tc main_v93) = W9 m ρ c (Proc.devRef .tc main_v93)).trans (cd2 m ρ c)) (((keepH6 (W12 m ρ c) (by decide) : W13 m ρ c (Proc.devRef .tc main_arg10) = W12 m ρ c (Proc.devRef .tc main_arg10)).trans ((keepR5 m ρ c main_arg10 (by decide)).trans ((keepH5 (W10 m ρ c) (by decide) : W11 m ρ c (Proc.devRef .tc main_arg10) = W10 m ρ c (Proc.devRef .tc main_arg10)).trans ((keepR4 m ρ c main_arg10 (by decide)).trans ((keepH4 (W8 m ρ c) (by decide) : W9 m ρ c (Proc.devRef .tc main_arg10) = W8 m ρ c (Proc.devRef .tc main_arg10)).trans ((keepR3 m ρ c main_arg10 (by decide)).trans ((keepH3 (W6 m ρ c) (by decide) : W7 m ρ c (Proc.devRef .tc main_arg10) = W6 m ρ c (Proc.devRef .tc main_arg10)).trans ((keepR2 m ρ c main_arg10 (by decide)).trans ((keepH2 (W4 m ρ c) (by decide) : W5 m ρ c (Proc.devRef .tc main_arg10) = W4 m ρ c (Proc.devRef .tc main_arg10)).trans ((keepR1 m ρ c main_arg10 (by decide)).trans ((keepH1 (W2 m ρ c) (by decide) : W3 m ρ c (Proc.devRef .tc main_arg10) = W2 m ρ c (Proc.devRef .tc main_arg10)).trans ((keepR0 m ρ c main_arg10 (by decide)).trans (keepH0 (W0 m ρ c) (by decide) : W1 m ρ c (Proc.devRef .tc main_arg10) = W0 m ρ c (Proc.devRef .tc main_arg10)))))))))))))) : W13 m ρ c (Proc.devRef .tc main_arg10) = W0 m ρ c (Proc.devRef .tc main_arg10)) (((keepH6 (W12 m ρ c) (by decide) : W13 m ρ c (Proc.devRef .tc main_arg11) = W12 m ρ c (Proc.devRef .tc main_arg11)).trans ((keepR5 m ρ c main_arg11 (by decide)).trans ((keepH5 (W10 m ρ c) (by decide) : W11 m ρ c (Proc.devRef .tc main_arg11) = W10 m ρ c (Proc.devRef .tc main_arg11)).trans ((keepR4 m ρ c main_arg11 (by decide)).trans ((keepH4 (W8 m ρ c) (by decide) : W9 m ρ c (Proc.devRef .tc main_arg11) = W8 m ρ c (Proc.devRef .tc main_arg11)).trans ((keepR3 m ρ c main_arg11 (by decide)).trans ((keepH3 (W6 m ρ c) (by decide) : W7 m ρ c (Proc.devRef .tc main_arg11) = W6 m ρ c (Proc.devRef .tc main_arg11)).trans ((keepR2 m ρ c main_arg11 (by decide)).trans ((keepH2 (W4 m ρ c) (by decide) : W5 m ρ c (Proc.devRef .tc main_arg11) = W4 m ρ c (Proc.devRef .tc main_arg11)).trans ((keepR1 m ρ c main_arg11 (by decide)).trans ((keepH1 (W2 m ρ c) (by decide) : W3 m ρ c (Proc.devRef .tc main_arg11) = W2 m ρ c (Proc.devRef .tc main_arg11)).trans ((keepR0 m ρ c main_arg11 (by decide)).trans (keepH0 (W0 m ρ c) (by decide) : W1 m ρ c (Proc.devRef .tc main_arg11) = W0 m ρ c (Proc.devRef .tc main_arg11)))))))))))))) : W13 m ρ c (Proc.devRef .tc main_arg11) = W0 m ρ c (Proc.devRef .tc main_arg11))))

theorem g3_2 : W15 m ρ c (Proc.devRef .tc main_v144) = GcnSpec.aggN (F := Ideal) (W0 m ρ c (Proc.devRef .tc main_arg3)) (W0 m ρ c (Proc.devRef .tc main_arg4)) (GcnSpec.feat3 (F := Ideal) (W0 m ρ c (Proc.devRef .tc main_arg3)) (W0 m ρ c (Proc.devRef .tc main_arg4)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))) (GcnSpec.norm (F := Ideal) (GcnSpec.deg (W0 m ρ c (Proc.devRef .tc main_arg3)))) :=
  (s7_agg (W14 m ρ c)).trans (congr4 (GcnSpec.aggN (F := Ideal)) (((keepR6 m ρ c main_arg3 (by decide)).trans ((keepH6 (W12 m ρ c) (by decide) : W13 m ρ c (Proc.devRef .tc main_arg3) = W12 m ρ c (Proc.devRef .tc main_arg3)).trans ((keepR5 m ρ c main_arg3 (by decide)).trans ((keepH5 (W10 m ρ c) (by decide) : W11 m ρ c (Proc.devRef .tc main_arg3) = W10 m ρ c (Proc.devRef .tc main_arg3)).trans ((keepR4 m ρ c main_arg3 (by decide)).trans ((keepH4 (W8 m ρ c) (by decide) : W9 m ρ c (Proc.devRef .tc main_arg3) = W8 m ρ c (Proc.devRef .tc main_arg3)).trans ((keepR3 m ρ c main_arg3 (by decide)).trans ((keepH3 (W6 m ρ c) (by decide) : W7 m ρ c (Proc.devRef .tc main_arg3) = W6 m ρ c (Proc.devRef .tc main_arg3)).trans ((keepR2 m ρ c main_arg3 (by decide)).trans ((keepH2 (W4 m ρ c) (by decide) : W5 m ρ c (Proc.devRef .tc main_arg3) = W4 m ρ c (Proc.devRef .tc main_arg3)).trans ((keepR1 m ρ c main_arg3 (by decide)).trans ((keepH1 (W2 m ρ c) (by decide) : W3 m ρ c (Proc.devRef .tc main_arg3) = W2 m ρ c (Proc.devRef .tc main_arg3)).trans ((keepR0 m ρ c main_arg3 (by decide)).trans (keepH0 (W0 m ρ c) (by decide) : W1 m ρ c (Proc.devRef .tc main_arg3) = W0 m ρ c (Proc.devRef .tc main_arg3))))))))))))))) : W14 m ρ c (Proc.devRef .tc main_arg3) = W0 m ρ c (Proc.devRef .tc main_arg3)) (((keepR6 m ρ c main_arg4 (by decide)).trans ((keepH6 (W12 m ρ c) (by decide) : W13 m ρ c (Proc.devRef .tc main_arg4) = W12 m ρ c (Proc.devRef .tc main_arg4)).trans ((keepR5 m ρ c main_arg4 (by decide)).trans ((keepH5 (W10 m ρ c) (by decide) : W11 m ρ c (Proc.devRef .tc main_arg4) = W10 m ρ c (Proc.devRef .tc main_arg4)).trans ((keepR4 m ρ c main_arg4 (by decide)).trans ((keepH4 (W8 m ρ c) (by decide) : W9 m ρ c (Proc.devRef .tc main_arg4) = W8 m ρ c (Proc.devRef .tc main_arg4)).trans ((keepR3 m ρ c main_arg4 (by decide)).trans ((keepH3 (W6 m ρ c) (by decide) : W7 m ρ c (Proc.devRef .tc main_arg4) = W6 m ρ c (Proc.devRef .tc main_arg4)).trans ((keepR2 m ρ c main_arg4 (by decide)).trans ((keepH2 (W4 m ρ c) (by decide) : W5 m ρ c (Proc.devRef .tc main_arg4) = W4 m ρ c (Proc.devRef .tc main_arg4)).trans ((keepR1 m ρ c main_arg4 (by decide)).trans ((keepH1 (W2 m ρ c) (by decide) : W3 m ρ c (Proc.devRef .tc main_arg4) = W2 m ρ c (Proc.devRef .tc main_arg4)).trans ((keepR0 m ρ c main_arg4 (by decide)).trans (keepH0 (W0 m ρ c) (by decide) : W1 m ρ c (Proc.devRef .tc main_arg4) = W0 m ρ c (Proc.devRef .tc main_arg4))))))))))))))) : W14 m ρ c (Proc.devRef .tc main_arg4) = W0 m ρ c (Proc.devRef .tc main_arg4))
    (h3_2 m ρ c) ((((keepR6 m ρ c main_v89 (by decide)).trans ((keepH6 (W12 m ρ c) (by decide) : W13 m ρ c (Proc.devRef .tc main_v89) = W12 m ρ c (Proc.devRef .tc main_v89)).trans ((keepR5 m ρ c main_v89 (by decide)).trans ((keepH5 (W10 m ρ c) (by decide) : W11 m ρ c (Proc.devRef .tc main_v89) = W10 m ρ c (Proc.devRef .tc main_v89)).trans (keepR4 m ρ c main_v89 (by decide)))))) : W14 m ρ c (Proc.devRef .tc main_v89) = W9 m ρ c (Proc.devRef .tc main_v89)).trans (cs2 m ρ c)))

theorem h4_2 : W16 m ρ c (Proc.devRef .tc main_v145) = (GcnSpec.feat4 (F := Ideal) (W0 m ρ c (Proc.devRef .tc main_arg3)) (W0 m ρ c (Proc.devRef .tc main_arg4)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (W16_arr m ρ c 4).trans ((arr7 (V15 m ρ) c).trans (congr4 (GcnSpec.layerN (F := Ideal)) (g3_2 m ρ c)
    ((((keepH7 (W14 m ρ c) (by decide) : W15 m ρ c (Proc.devRef .tc main_v93) = W14 m ρ c (Proc.devRef .tc main_v93)).trans ((keepR6 m ρ c main_v93 (by decide)).trans ((keepH6 (W12 m ρ c) (by decide) : W13 m ρ c (Proc.devRef .tc main_v93) = W12 m ρ c (Proc.devRef .tc main_v93)).trans ((keepR5 m ρ c main_v93 (by decide)).trans ((keepH5 (W10 m ρ c) (by decide) : W11 m ρ c (Proc.devRef .tc main_v93) = W10 m ρ c (Proc.devRef .tc main_v93)).trans (keepR4 m ρ c main_v93 (by decide))))))) : W15 m ρ c (Proc.devRef .tc main_v93) = W9 m ρ c (Proc.devRef .tc main_v93)).trans (cd2 m ρ c)) (((keepH7 (W14 m ρ c) (by decide) : W15 m ρ c (Proc.devRef .tc main_arg12) = W14 m ρ c (Proc.devRef .tc main_arg12)).trans ((keepR6 m ρ c main_arg12 (by decide)).trans ((keepH6 (W12 m ρ c) (by decide) : W13 m ρ c (Proc.devRef .tc main_arg12) = W12 m ρ c (Proc.devRef .tc main_arg12)).trans ((keepR5 m ρ c main_arg12 (by decide)).trans ((keepH5 (W10 m ρ c) (by decide) : W11 m ρ c (Proc.devRef .tc main_arg12) = W10 m ρ c (Proc.devRef .tc main_arg12)).trans ((keepR4 m ρ c main_arg12 (by decide)).trans ((keepH4 (W8 m ρ c) (by decide) : W9 m ρ c (Proc.devRef .tc main_arg12) = W8 m ρ c (Proc.devRef .tc main_arg12)).trans ((keepR3 m ρ c main_arg12 (by decide)).trans ((keepH3 (W6 m ρ c) (by decide) : W7 m ρ c (Proc.devRef .tc main_arg12) = W6 m ρ c (Proc.devRef .tc main_arg12)).trans ((keepR2 m ρ c main_arg12 (by decide)).trans ((keepH2 (W4 m ρ c) (by decide) : W5 m ρ c (Proc.devRef .tc main_arg12) = W4 m ρ c (Proc.devRef .tc main_arg12)).trans ((keepR1 m ρ c main_arg12 (by decide)).trans ((keepH1 (W2 m ρ c) (by decide) : W3 m ρ c (Proc.devRef .tc main_arg12) = W2 m ρ c (Proc.devRef .tc main_arg12)).trans ((keepR0 m ρ c main_arg12 (by decide)).trans (keepH0 (W0 m ρ c) (by decide) : W1 m ρ c (Proc.devRef .tc main_arg12) = W0 m ρ c (Proc.devRef .tc main_arg12)))))))))))))))) : W15 m ρ c (Proc.devRef .tc main_arg12) = W0 m ρ c (Proc.devRef .tc main_arg12)) (((keepH7 (W14 m ρ c) (by decide) : W15 m ρ c (Proc.devRef .tc main_arg13) = W14 m ρ c (Proc.devRef .tc main_arg13)).trans ((keepR6 m ρ c main_arg13 (by decide)).trans ((keepH6 (W12 m ρ c) (by decide) : W13 m ρ c (Proc.devRef .tc main_arg13) = W12 m ρ c (Proc.devRef .tc main_arg13)).trans ((keepR5 m ρ c main_arg13 (by decide)).trans ((keepH5 (W10 m ρ c) (by decide) : W11 m ρ c (Proc.devRef .tc main_arg13) = W10 m ρ c (Proc.devRef .tc main_arg13)).trans ((keepR4 m ρ c main_arg13 (by decide)).trans ((keepH4 (W8 m ρ c) (by decide) : W9 m ρ c (Proc.devRef .tc main_arg13) = W8 m ρ c (Proc.devRef .tc main_arg13)).trans ((keepR3 m ρ c main_arg13 (by decide)).trans ((keepH3 (W6 m ρ c) (by decide) : W7 m ρ c (Proc.devRef .tc main_arg13) = W6 m ρ c (Proc.devRef .tc main_arg13)).trans ((keepR2 m ρ c main_arg13 (by decide)).trans ((keepH2 (W4 m ρ c) (by decide) : W5 m ρ c (Proc.devRef .tc main_arg13) = W4 m ρ c (Proc.devRef .tc main_arg13)).trans ((keepR1 m ρ c main_arg13 (by decide)).trans ((keepH1 (W2 m ρ c) (by decide) : W3 m ρ c (Proc.devRef .tc main_arg13) = W2 m ρ c (Proc.devRef .tc main_arg13)).trans ((keepR0 m ρ c main_arg13 (by decide)).trans (keepH0 (W0 m ρ c) (by decide) : W1 m ρ c (Proc.devRef .tc main_arg13) = W0 m ρ c (Proc.devRef .tc main_arg13)))))))))))))))) : W15 m ρ c (Proc.devRef .tc main_arg13) = W0 m ρ c (Proc.devRef .tc main_arg13))))

theorem out2 : W17 m ρ c (Proc.devRef .tc main_v157) = (GcnSpec.branch (F := Ideal) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (s8_out (W16 m ρ c)).trans (congrArg₂ (GcnSpec.readout (F := Ideal)) (h4_2 m ρ c) (((keepR7 m ρ c main_arg5 (by decide)).trans ((keepH7 (W14 m ρ c) (by decide) : W15 m ρ c (Proc.devRef .tc main_arg5) = W14 m ρ c (Proc.devRef .tc main_arg5)).trans ((keepR6 m ρ c main_arg5 (by decide)).trans ((keepH6 (W12 m ρ c) (by decide) : W13 m ρ c (Proc.devRef .tc main_arg5) = W12 m ρ c (Proc.devRef .tc main_arg5)).trans ((keepR5 m ρ c main_arg5 (by decide)).trans ((keepH5 (W10 m ρ c) (by decide) : W11 m ρ c (Proc.devRef .tc main_arg5) = W10 m ρ c (Proc.devRef .tc main_arg5)).trans ((keepR4 m ρ c main_arg5 (by decide)).trans ((keepH4 (W8 m ρ c) (by decide) : W9 m ρ c (Proc.devRef .tc main_arg5) = W8 m ρ c (Proc.devRef .tc main_arg5)).trans ((keepR3 m ρ c main_arg5 (by decide)).trans ((keepH3 (W6 m ρ c) (by decide) : W7 m ρ c (Proc.devRef .tc main_arg5) = W6 m ρ c (Proc.devRef .tc main_arg5)).trans ((keepR2 m ρ c main_arg5 (by decide)).trans ((keepH2 (W4 m ρ c) (by decide) : W5 m ρ c (Proc.devRef .tc main_arg5) = W4 m ρ c (Proc.devRef .tc main_arg5)).trans ((keepR1 m ρ c main_arg5 (by decide)).trans ((keepH1 (W2 m ρ c) (by decide) : W3 m ρ c (Proc.devRef .tc main_arg5) = W2 m ρ c (Proc.devRef .tc main_arg5)).trans ((keepR0 m ρ c main_arg5 (by decide)).trans (keepH0 (W0 m ρ c) (by decide) : W1 m ρ c (Proc.devRef .tc main_arg5) = W0 m ρ c (Proc.devRef .tc main_arg5))))))))))))))))) : W16 m ρ c (Proc.devRef .tc main_arg5) = W0 m ρ c (Proc.devRef .tc main_arg5)))

/-! ## The three results at the last boundary -/

theorem result0 : W18 m ρ c (Proc.devRef .tc main_v78) = (GcnSpec.branch (F := Ideal) (W0 m ρ c (Proc.devRef .tc main_arg0)) (W0 m ρ c (Proc.devRef .tc main_arg1)) (W0 m ρ c (Proc.devRef .tc main_arg2)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (((keepR8 m ρ c main_v78 (by decide)).trans ((keepH8 (W16 m ρ c) (by decide) : W17 m ρ c (Proc.devRef .tc main_v78) = W16 m ρ c (Proc.devRef .tc main_v78)).trans ((keepR7 m ρ c main_v78 (by decide)).trans ((keepH7 (W14 m ρ c) (by decide) : W15 m ρ c (Proc.devRef .tc main_v78) = W14 m ρ c (Proc.devRef .tc main_v78)).trans ((keepR6 m ρ c main_v78 (by decide)).trans ((keepH6 (W12 m ρ c) (by decide) : W13 m ρ c (Proc.devRef .tc main_v78) = W12 m ρ c (Proc.devRef .tc main_v78)).trans ((keepR5 m ρ c main_v78 (by decide)).trans ((keepH5 (W10 m ρ c) (by decide) : W11 m ρ c (Proc.devRef .tc main_v78) = W10 m ρ c (Proc.devRef .tc main_v78)).trans (keepR4 m ρ c main_v78 (by decide)))))))))) : W18 m ρ c (Proc.devRef .tc main_v78) = W9 m ρ c (Proc.devRef .tc main_v78)).trans (out1 m ρ c)

theorem result1 : W18 m ρ c (Proc.devRef .tc main_v157) = (GcnSpec.branch (F := Ideal) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) :=
  (keepR8 m ρ c main_v157 (by decide)).trans (out2 m ρ c)

theorem result2 : W18 m ρ c (Proc.devRef .tc main_v158) = GcnSpec.logits (F := Ideal) (GcnSpec.branch (F := Ideal) (W0 m ρ c (Proc.devRef .tc main_arg0)) (W0 m ρ c (Proc.devRef .tc main_arg1)) (W0 m ρ c (Proc.devRef .tc main_arg2)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) (GcnSpec.branch (F := Ideal) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) (W0 m ρ c (Proc.devRef .tc main_arg14)) (W0 m ρ c (Proc.devRef .tc main_arg15)) :=
  (W18_arr m ρ c 4).trans ((arr8 (V17 m ρ) c).trans (congr4 (GcnSpec.logits (F := Ideal))
    ((((keepH8 (W16 m ρ c) (by decide) : W17 m ρ c (Proc.devRef .tc main_v78) = W16 m ρ c (Proc.devRef .tc main_v78)).trans ((keepR7 m ρ c main_v78 (by decide)).trans ((keepH7 (W14 m ρ c) (by decide) : W15 m ρ c (Proc.devRef .tc main_v78) = W14 m ρ c (Proc.devRef .tc main_v78)).trans ((keepR6 m ρ c main_v78 (by decide)).trans ((keepH6 (W12 m ρ c) (by decide) : W13 m ρ c (Proc.devRef .tc main_v78) = W12 m ρ c (Proc.devRef .tc main_v78)).trans ((keepR5 m ρ c main_v78 (by decide)).trans ((keepH5 (W10 m ρ c) (by decide) : W11 m ρ c (Proc.devRef .tc main_v78) = W10 m ρ c (Proc.devRef .tc main_v78)).trans (keepR4 m ρ c main_v78 (by decide))))))))) : W17 m ρ c (Proc.devRef .tc main_v78) = W9 m ρ c (Proc.devRef .tc main_v78)).trans (out1 m ρ c)) (out2 m ρ c) (((keepH8 (W16 m ρ c) (by decide) : W17 m ρ c (Proc.devRef .tc main_arg14) = W16 m ρ c (Proc.devRef .tc main_arg14)).trans ((keepR7 m ρ c main_arg14 (by decide)).trans ((keepH7 (W14 m ρ c) (by decide) : W15 m ρ c (Proc.devRef .tc main_arg14) = W14 m ρ c (Proc.devRef .tc main_arg14)).trans ((keepR6 m ρ c main_arg14 (by decide)).trans ((keepH6 (W12 m ρ c) (by decide) : W13 m ρ c (Proc.devRef .tc main_arg14) = W12 m ρ c (Proc.devRef .tc main_arg14)).trans ((keepR5 m ρ c main_arg14 (by decide)).trans ((keepH5 (W10 m ρ c) (by decide) : W11 m ρ c (Proc.devRef .tc main_arg14) = W10 m ρ c (Proc.devRef .tc main_arg14)).trans ((keepR4 m ρ c main_arg14 (by decide)).trans ((keepH4 (W8 m ρ c) (by decide) : W9 m ρ c (Proc.devRef .tc main_arg14) = W8 m ρ c (Proc.devRef .tc main_arg14)).trans ((keepR3 m ρ c main_arg14 (by decide)).trans ((keepH3 (W6 m ρ c) (by decide) : W7 m ρ c (Proc.devRef .tc main_arg14) = W6 m ρ c (Proc.devRef .tc main_arg14)).trans ((keepR2 m ρ c main_arg14 (by decide)).trans ((keepH2 (W4 m ρ c) (by decide) : W5 m ρ c (Proc.devRef .tc main_arg14) = W4 m ρ c (Proc.devRef .tc main_arg14)).trans ((keepR1 m ρ c main_arg14 (by decide)).trans ((keepH1 (W2 m ρ c) (by decide) : W3 m ρ c (Proc.devRef .tc main_arg14) = W2 m ρ c (Proc.devRef .tc main_arg14)).trans ((keepR0 m ρ c main_arg14 (by decide)).trans (keepH0 (W0 m ρ c) (by decide) : W1 m ρ c (Proc.devRef .tc main_arg14) = W0 m ρ c (Proc.devRef .tc main_arg14)))))))))))))))))) : W17 m ρ c (Proc.devRef .tc main_arg14) = W0 m ρ c (Proc.devRef .tc main_arg14)) (((keepH8 (W16 m ρ c) (by decide) : W17 m ρ c (Proc.devRef .tc main_arg15) = W16 m ρ c (Proc.devRef .tc main_arg15)).trans ((keepR7 m ρ c main_arg15 (by decide)).trans ((keepH7 (W14 m ρ c) (by decide) : W15 m ρ c (Proc.devRef .tc main_arg15) = W14 m ρ c (Proc.devRef .tc main_arg15)).trans ((keepR6 m ρ c main_arg15 (by decide)).trans ((keepH6 (W12 m ρ c) (by decide) : W13 m ρ c (Proc.devRef .tc main_arg15) = W12 m ρ c (Proc.devRef .tc main_arg15)).trans ((keepR5 m ρ c main_arg15 (by decide)).trans ((keepH5 (W10 m ρ c) (by decide) : W11 m ρ c (Proc.devRef .tc main_arg15) = W10 m ρ c (Proc.devRef .tc main_arg15)).trans ((keepR4 m ρ c main_arg15 (by decide)).trans ((keepH4 (W8 m ρ c) (by decide) : W9 m ρ c (Proc.devRef .tc main_arg15) = W8 m ρ c (Proc.devRef .tc main_arg15)).trans ((keepR3 m ρ c main_arg15 (by decide)).trans ((keepH3 (W6 m ρ c) (by decide) : W7 m ρ c (Proc.devRef .tc main_arg15) = W6 m ρ c (Proc.devRef .tc main_arg15)).trans ((keepR2 m ρ c main_arg15 (by decide)).trans ((keepH2 (W4 m ρ c) (by decide) : W5 m ρ c (Proc.devRef .tc main_arg15) = W4 m ρ c (Proc.devRef .tc main_arg15)).trans ((keepR1 m ρ c main_arg15 (by decide)).trans ((keepH1 (W2 m ρ c) (by decide) : W3 m ρ c (Proc.devRef .tc main_arg15) = W2 m ρ c (Proc.devRef .tc main_arg15)).trans ((keepR0 m ρ c main_arg15 (by decide)).trans (keepH0 (W0 m ρ c) (by decide) : W1 m ρ c (Proc.devRef .tc main_arg15) = W0 m ρ c (Proc.devRef .tc main_arg15)))))))))))))))))) : W17 m ρ c (Proc.devRef .tc main_arg15) = W0 m ρ c (Proc.devRef .tc main_arg15))))

end Cert.KernelIdeal.Values

end
-- ==== Proof.RefSpec.lean ====
/-
  The reference's three results are the two branches and the classifier on them.

  The reference's run names each result as the composed term of its host operations over the arguments' launch
  contents.  Those terms are, operation for operation, the functions of the specification: the degree counts, the two
  normalising columns, the wrapped gather indices, a gather and scatter-add per layer, the dense node update, the
  readout and the classifier.  So each equation below holds by unfolding definitions on both sides.
-/
import proofs.«134133_j74509092651322_1_alg».proof.Proof.Spec
import proofs.«134133_j74509092651322_1_alg».proof.Proof.Gen.ReferenceIdeal.Run

set_option maxRecDepth 16384

noncomputable section

namespace Cert.GcnSpec

open Idealize.ShloMosaic Idealize.ShloMosaic.TcCoe Idealize.ShloMosaic.StableHlo
open Cert.ReferenceIdeal Cert.ReferenceIdeal.Gen Cert.ReferenceIdeal.Value

variable {F : FTy → Type} [FloatOps F] (V0 : Valuation τ sig (Elt F))

theorem res_v0 : res_main_v0 V0 = onesE (F := F) := rfl
theorem res_v6 : res_main_v6 V0 = deg (F := F) (V0 (Proc.devRef .tc main_arg1)) := rfl
theorem res_v10 : res_main_v10 V0 = norm (F := F) (deg (V0 (Proc.devRef .tc main_arg0))) := rfl
theorem res_v14 : res_main_v14 V0 = norm (F := F) (deg (V0 (Proc.devRef .tc main_arg1))) := rfl
theorem res_v106 : res_main_v106 V0 = onesE (F := F) := rfl
theorem res_v112 : res_main_v112 V0 = deg (F := F) (V0 (Proc.devRef .tc main_arg4)) := rfl
theorem res_v116 : res_main_v116 V0 = norm (F := F) (deg (V0 (Proc.devRef .tc main_arg3))) := rfl
theorem res_v120 : res_main_v120 V0 = norm (F := F) (deg (V0 (Proc.devRef .tc main_arg4))) := rfl

/-- The messages gathered along the edges for the fourth layer of the first branch. -/
theorem res_v82 : res_main_v82 V0 = msgN (F := F) (V0 (Proc.devRef .tc main_arg0)) (feat3 (V0 (Proc.devRef .tc main_arg0)) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) (norm (deg (V0 (Proc.devRef .tc main_arg0)))) := rfl

/-- The same for the second branch. -/
theorem res_v188 : res_main_v188 V0 = msgN (F := F) (V0 (Proc.devRef .tc main_arg3)) (feat3 (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) (norm (deg (V0 (Proc.devRef .tc main_arg3)))) := rfl

/-- The first readout. -/
theorem out_v105 : val5 V0 (Proc.devRef .tc main_v105) = branch (F := F) (V0 (Proc.devRef .tc main_arg0)) (V0 (Proc.devRef .tc main_arg1)) (V0 (Proc.devRef .tc main_arg2)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val5_main_v105 V0).trans (by rw [res_v82, res_v14]; rfl)

/-- The second readout. -/
theorem out_v211 : val5 V0 (Proc.devRef .tc main_v211) = branch (F := F) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  (val5_main_v211 V0).trans (by rw [res_v188, res_v120]; rfl)

/-- The logits. -/
theorem out_v217 : val5 V0 (Proc.devRef .tc main_v217) = logits (F := F)
    (branch (V0 (Proc.devRef .tc main_arg0)) (V0 (Proc.devRef .tc main_arg1)) (V0 (Proc.devRef .tc main_arg2)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)))
    (branch (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (V0 (Proc.devRef .tc main_arg14)) (V0 (Proc.devRef .tc main_arg15)) :=
  (val5_main_v217 V0).trans (by rw [res_v82, res_v14, res_v188, res_v120]; rfl)

end Cert.GcnSpec

end
-- ==== Proof.lean ====
/-
  The certificate: a two-branch graph-convolution network and its classifier, kernel against reference.

  Both programs compute, for two batches of graphs, four normalised graph-convolution layers and a mean readout per
  graph, and from the two readouts the logits |hg1 - hg2| @ Wc + bc.  They share every irregular step (the degree
  counts, the gathers along the edges and the scatter-adds into the targets are the same host operations in both);
  they differ only in the dense node update relu ((agg * cd) @ W + b), which the reference computes on all 100000
  rows at once and the kernel in launches that walk over twenty blocks of 5000 rows with operands narrowed to bf16,
  and in the classifier, one more launch.  At the ideal values narrowing is the identity and a row of the update depends on that
  row of its input only, so each launch leaves exactly the reference's layer, and the two programs' results are one
  and the same term of the arguments.  No arithmetic law is needed, so the precondition is not used.

  The three frames are the generated ones (the reference's is its run with the results dropped); the idealization
  rewrote nothing, so the fourth conjunct is trivial.
-/
import proofs.«134133_j74509092651322_1_alg».proof.Defs
import proofs.«134133_j74509092651322_1_alg».proof.Proof.Gen.Kernel
import proofs.«134133_j74509092651322_1_alg».proof.Proof.Gen.Kernel.Frame
import proofs.«134133_j74509092651322_1_alg».proof.Proof.Gen.KernelIdeal
import proofs.«134133_j74509092651322_1_alg».proof.Proof.Gen.KernelIdeal.Frame
import proofs.«134133_j74509092651322_1_alg».proof.Proof.Gen.ReferenceIdeal
import proofs.«134133_j74509092651322_1_alg».proof.Proof.Gen.ReferenceIdeal.Run
import proofs.«134133_j74509092651322_1_alg».proof.Proof.Gen.Pre_finite_inputs
import proofs.«134133_j74509092651322_1_alg».proof.Proof.KernelRun
import proofs.«134133_j74509092651322_1_alg».proof.Proof.Values
import proofs.«134133_j74509092651322_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the two readouts and the logits at the same functions of arguments that agree. -/
theorem algebraic : Cert.algebraic_KernelIdeal_ReferenceIdeal := by
  intro m ρ m' ρ' _ hagree
  refine ⟨fun c => Cert.KernelIdeal.Gen.W18 m ρ c (Proc.devRef .tc Cert.KernelIdeal.main_v78),
    fun c => Cert.KernelIdeal.Gen.W18 m ρ c (Proc.devRef .tc Cert.KernelIdeal.main_v157),
    fun c => Cert.KernelIdeal.Gen.W18 m ρ c (Proc.devRef .tc Cert.KernelIdeal.main_v158),
    Cert.KernelIdeal.Run.run_values m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15⟩ := hagree c
  have e1 : (GcnSpec.branch (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = (GcnSpec.branch (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) := by
    rw [a0, a1, a2, a6, a7, a8, a9, a10, a11, a12, a13]
  have e2 : (GcnSpec.branch (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = (GcnSpec.branch (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) := by
    rw [a3, a4, a5, a6, a7, a8, a9, a10, a11, a12, a13]
  refine ⟨(h c).1.trans ?_, (h c).2.1.trans ?_, (h c).2.2.1.trans ?_, (h c).2.2.2⟩
  · refine ((Cert.ReferenceIdeal.Value.val5_main_v105 _).symm.trans (GcnSpec.out_v105 (launchContents m' c))).trans ?_
    exact e1.trans (Cert.KernelIdeal.Values.result0 m ρ c).symm
  · refine ((Cert.ReferenceIdeal.Value.val5_main_v211 _).symm.trans (GcnSpec.out_v211 (launchContents m' c))).trans ?_
    exact e2.trans (Cert.KernelIdeal.Values.result1 m ρ c).symm
  · refine ((Cert.ReferenceIdeal.Value.val5_main_v217 _).symm.trans (GcnSpec.out_v217 (launchContents m' c))).trans ?_
    refine Eq.trans ?_ (Cert.KernelIdeal.Values.result2 m ρ c).symm
    show GcnSpec.logits (F := Ideal) (GcnSpec.branch (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (GcnSpec.branch (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = GcnSpec.logits (F := Ideal) (GcnSpec.branch (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (GcnSpec.branch (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    rw [e1, e2, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
